-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S128x128 : Shape := ⟨2, ![128, 128]⟩
abbrev S65536 : Shape := ⟨1, ![65536]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16x2048x128 .f32) (main_arg1 : FVec F S128x128 .f32) (main_arg2 : IVec S65536 32) (main_arg3 : IVec S65536 32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S16x2048x128 : Shape := ⟨3, ![16, 2048, 128]⟩
abbrev S128x128 : Shape := ⟨2, ![128, 128]⟩
abbrev S65536 : Shape := ⟨1, ![65536]⟩
abbrev S_ : Shape := ⟨0, ![]⟩
abbrev S2048x2048 : Shape := ⟨2, ![2048, 2048]⟩
abbrev S65536x1 : Shape := ⟨2, ![65536, 1]⟩
abbrev S65536x2 : Shape := ⟨2, ![65536, 2]⟩
abbrev S32768x128 : Shape := ⟨2, ![32768, 128]⟩
abbrev S4096x128 : Shape := ⟨2, ![4096, 128]⟩
abbrev S1x512x128 : Shape := ⟨3, ![1, 512, 128]⟩
abbrev S1x2048x128 : Shape := ⟨3, ![1, 2048, 128]⟩
abbrev S512x2048 : Shape := ⟨2, ![512, 2048]⟩
abbrev S512x128 : Shape := ⟨2, ![512, 128]⟩
abbrev S2048x128 : Shape := ⟨2, ![2048, 128]⟩
abbrev S512 : Shape := ⟨1, ![512]⟩
abbrev S512x1 : Shape := ⟨2, ![512, 1]⟩

abbrev nBuf : Space → Nat
  | .hbm => 30
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S128x128, .f32⟩
  | .hbm, ⟨2, _⟩ => ⟨S65536, .i32⟩
  | .hbm, ⟨3, _⟩ => ⟨S65536, .i32⟩
  | .hbm, ⟨4, _⟩ => ⟨S_, .bf16⟩
  | .hbm, ⟨5, _⟩ => ⟨S2048x2048, .bf16⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S_, .i32⟩
  | .hbm, ⟨14, _⟩ => ⟨S65536, .i32⟩
  | .hbm, ⟨15, _⟩ => ⟨S65536, .i1⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S65536, .i32⟩
  | .hbm, ⟨20, _⟩ => ⟨S65536x1, .i32⟩
  | .hbm, ⟨21, _⟩ => ⟨S65536x1, .i32⟩
  | .hbm, ⟨22, _⟩ => ⟨S65536x2, .i32⟩
  | .hbm, ⟨23, _⟩ => ⟨S_, .bf16⟩
  | .hbm, ⟨24, _⟩ => ⟨S65536, .bf16⟩
  | .hbm, ⟨25, _⟩ => ⟨S2048x2048, .bf16⟩
  | .hbm, ⟨26, _⟩ => ⟨S32768x128, .f32⟩
  | .hbm, ⟨27, _⟩ => ⟨S32768x128, .f32⟩
  | .hbm, ⟨28, _⟩ => ⟨S16x2048x128, .f32⟩
  | .hbm, ⟨29, _⟩ => ⟨S16x2048x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S1x512x128, .f32⟩
  | .local _ .vmem, ⟨6, _⟩ => ⟨S1x512x128, .f32⟩
  | .local _ .vmem, ⟨7, _⟩ => ⟨S1x2048x128, .f32⟩
  | .local _ .vmem, ⟨8, _⟩ => ⟨S1x2048x128, .f32⟩
  | .local _ .vmem, ⟨9, _⟩ => ⟨S2048x2048, .bf16⟩
  | .local _ .vmem, ⟨10, _⟩ => ⟨S1x512x128, .f32⟩
  | .local _ .vmem, ⟨11, _⟩ => ⟨S1x512x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_off1 (i : grid1.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S2048x2048 : S_.BroadcastsInDim S2048x2048 (![] : Fin 0 → Fin S2048x2048.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  shapeCasts_S16x2048x128_S32768x128 : S16x2048x128.ShapeCasts S32768x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S32768x128_S16x2048x128 : S32768x128.ShapeCasts S16x2048x128
  h_S512x2048 : 0 < S512x2048.numel
  shapeCasts_S512x2048_S512x2048 : S512x2048.ShapeCasts S512x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S512x2048_S512 : S512x2048.Reduces [1] S512
  shapeCasts_S512_S512x1 : S512.ShapeCasts S512x1
  broadcasts_S512x1_S512x2048 : S512x1.Broadcasts S512x2048
  broadcasts_S512x1_S512x128 : S512x1.Broadcasts S512x128
  shapeCasts_S512x128_S1x512x128 : S512x128.ShapeCasts S1x512x128
  scatter_S2048x2048_S65536x2_S65536_n_01_01_1_wf : ScatterDims.WF S2048x2048 S65536x2 S65536 [] [0, 1] [0, 1] 1
  dot_S4096x128_S128x128_S4096x128_1_0_0_1_n_n_wf : DotDims.WF S4096x128 S128x128 S4096x128 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S32768x128.size a
  hwx0_2 : ∀ i : grid0.Coords, EltTy.bits .f32 = 32 ∨ (Rect.block (s := S32768x128) S4096x128.size (cc0_transform_2 i) (hinb0_2 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x2048.size a ≤ S2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S16x2048x128.size a
  hwx1_0 : ∀ i : grid1.Coords, EltTy.bits .f32 = 32 ∨ (Rect.block (s := S16x2048x128) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S16x2048x128.size a
  hwx1_1 : ∀ i : grid1.Coords, EltTy.bits .f32 = 32 ∨ (Rect.block (s := S16x2048x128) S1x2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S16x2048x128.size a
  hwx1_3 : ∀ i : grid1.Coords, EltTy.bits .f32 = 32 ∨ (Rect.block (s := S16x2048x128) S1x512x128.size (cc1_transform_3 i) (hinb1_3 i)).WholeWords (EltTy.packing .f32)

variable [Facts₀]

def scatter_S2048x2048_S65536x2_S65536_n_01_01_1 : ScatterDims S2048x2048 S65536x2 S65536 where
  updateWindowDims := []
  insertedWindowDims := [0, 1]
  scatterDimsToOperandDims := [0, 1]
  indexVectorDim := 1
  wf := scatter_S2048x2048_S65536x2_S65536_n_01_01_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v16) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x128 : Shape := ⟨3, ![16, 2048, 128]⟩
abbrev S128x128 : Shape := ⟨2, ![128, 128]⟩
abbrev S65536 : Shape := ⟨1, ![65536]⟩
abbrev S16x2048x2048 : Shape := ⟨3, ![16, 2048, 2048]⟩
abbrev S_ : Shape := ⟨0, ![]⟩
abbrev S2048x2048 : Shape := ⟨2, ![2048, 2048]⟩
abbrev S65536x1 : Shape := ⟨2, ![65536, 1]⟩
abbrev S65536x2 : Shape := ⟨2, ![65536, 2]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S128x128, .f32⟩
  | .hbm, ⟨2, _⟩ => ⟨S65536, .i32⟩
  | .hbm, ⟨3, _⟩ => ⟨S65536, .i32⟩
  | .hbm, ⟨4, _⟩ => ⟨S16x2048x128, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .i1⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S2048x2048, .f32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S65536, .i32⟩
  | .hbm, ⟨29, _⟩ => ⟨S65536x1, .i32⟩
  | .hbm, ⟨30, _⟩ => ⟨S65536x1, .i32⟩
  | .hbm, ⟨31, _⟩ => ⟨S65536x2, .i32⟩
  | .hbm, ⟨32, _⟩ => ⟨S_, .f32⟩
  | .hbm, ⟨33, _⟩ => ⟨S65536, .f32⟩
  | .hbm, ⟨34, _⟩ => ⟨S2048x2048, .f32⟩
  | .hbm, ⟨35, _⟩ => ⟨S1x2048x2048, .f32⟩
  | .hbm, ⟨36, _⟩ => ⟨S16x2048x2048, .f32⟩
  | .hbm, ⟨37, _⟩ => ⟨S16x2048x2048, .f32⟩
  | .hbm, ⟨38, _⟩ => ⟨S_, .f32⟩
  | .hbm, ⟨39, _⟩ => ⟨S16x2048x2048, .f32⟩
  | .hbm, ⟨40, _⟩ => ⟨S16x2048x2048, .i1⟩
  | .hbm, ⟨41, _⟩ => ⟨S_, .f32⟩
  | .hbm, ⟨42, _⟩ => ⟨S_, .f32⟩
  | .hbm, ⟨43, _⟩ => ⟨S16x2048x2048, .f32⟩
  | .hbm, ⟨44, _⟩ => ⟨S16x2048x2048, .f32⟩
  | .hbm, ⟨45, _⟩ => ⟨S_, .f32⟩
  | .hbm, ⟨46, _⟩ => ⟨S16x2048, .f32⟩
  | .hbm, ⟨47, _⟩ => ⟨S_, .f32⟩
  | .hbm, ⟨48, _⟩ => ⟨S16x2048, .f32⟩
  | .hbm, ⟨49, _⟩ => ⟨S16x2048, .f32⟩
  | .hbm, ⟨50, _⟩ => ⟨S16x2048x1, .f32⟩
  | .hbm, ⟨51, _⟩ => ⟨S16x2048x2048, .f32⟩
  | .hbm, ⟨52, _⟩ => ⟨S16x2048x2048, .f32⟩
  | .hbm, ⟨53, _⟩ => ⟨S16x2048x2048, .f32⟩
  | .hbm, ⟨54, _⟩ => ⟨S_, .f32⟩
  | .hbm, ⟨55, _⟩ => ⟨S16x2048, .f32⟩
  | .hbm, ⟨56, _⟩ => ⟨S16x2048x1, .f32⟩
  | .hbm, ⟨57, _⟩ => ⟨S16x2048x2048, .f32⟩
  | .hbm, ⟨58, _⟩ => ⟨S16x2048x2048, .f32⟩
  | .hbm, ⟨59, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S_S2048x2048 : S_.BroadcastsInDim S2048x2048 (![] : Fin 0 → Fin S2048x2048.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S128x128_S16x2048x128_2_0_01_1_n_n_wf : DotDims.WF S16x2048x128 S128x128 S16x2048x128 [2] [0] [0, 1] [1] [] []
  dot_S16x2048x128_S16x2048x128_S16x2048x2048_2_2_1_1_0_0_wf : DotDims.WF S16x2048x128 S16x2048x128 S16x2048x2048 [2] [2] [1] [1] [0] [0]
  scatter_S2048x2048_S65536x2_S65536_n_01_01_1_wf : ScatterDims.WF S2048x2048 S65536x2 S65536 [] [0, 1] [0, 1] 1
  dot_S16x2048x2048_S16x2048x128_S16x2048x128_2_1_1_2_0_0_wf : DotDims.WF S16x2048x2048 S16x2048x128 S16x2048x128 [2] [1] [1] [2] [0] [0]

variable [Facts₀]

def dot_S16x2048x128_S128x128_S16x2048x128_2_0_01_1_n_n : DotDims S16x2048x128 S128x128 S16x2048x128 where
  lhsContracting := [2]
  rhsContracting := [0]
  lhsNonContracting := [0, 1]
  rhsNonContracting := [1]
  lhsBatch := []
  rhsBatch := []
  wf := dot_S16x2048x128_S128x128_S16x2048x128_2_0_01_1_n_n_wf
def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def scatter_S2048x2048_S65536x2_S65536_n_01_01_1 : ScatterDims S2048x2048 S65536x2 S65536 where
  updateWindowDims := []
  insertedWindowDims := [0, 1]
  scatterDimsToOperandDims := [0, 1]
  indexVectorDim := 1
  wf := scatter_S2048x2048_S65536x2_S65536_n_01_01_1_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.ProjRegionB.lean ====
/-
  The projection call, region by itself, at ANY contents `V` of the core's buffers when the region is entered.
  A grid point t stages rows 4096·t … 4096·t+4095 of the flattened features and the whole weight, and the body
  stores one matrix product of the two staged blocks over the whole output block: what the output's staging buffer
  holds after the body is that product, a function of the two input blocks alone.
-/
import proofs.«142861_j43499428774616_2_alg».proof.Proof.Gen.Kernel.Launch
import proofs.«142861_j43499428774616_2_alg».proof.Proof.Gen.Kernel.Skeleton
import proofs.«142861_j43499428774616_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_a : Rect S4096x128 := Rect.unit (s := S4096x128) ![0, 0] S4096x128.size inb_S4096x128_S4096x128_0_0
abbrev r0_w : Rect S128x128 := Rect.unit (s := S128x128) ![0, 0] S128x128.size inb_S128x128_S128x128_0_0

/-- The output's staging buffer after the body: the product of the two staged blocks, stored whole. -/
def out0_2 (x0 : Vec F S4096x128 .f32) (x1 : Vec F S128x128 .f32) : Vec F S4096x128 .f32 :=
  View.canon [⟨r0_a, k0_pay1 (View.ld x0 r0_a) (View.ld x1 r0_w)⟩]

/-- The one store covers the buffer. -/
theorem cover0_2 (p0 : Vec F S4096x128 .f32) (y : S4096x128.Idx) :
    ∃ pc ∈ ([⟨r0_a, p0⟩] : List (View.Piece (Elt F) S4096x128 .f32)), y ∈ pc.1.set :=
  View.cover_of_tiled [⟨r0_a, p0⟩] S4096x128.size (by rfl) y

set_option maxHeartbeats 1000000 in
/-- The body on whole staging memrefs, the inputs' at read contents and the output's at anything, runs to the
    continuation holding the inputs' as they were and the output's at `out0_2` of them. -/
theorem sound_kernel0 (c : Dev nD) (E : Set ℕ) (i : grid0.Coords) (arg1 : Memref sig .tc .vmem S4096x128 .f32) (harg1 : arg1.IsWhole)
    (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection's pipeline on core `c`: the arrays as the region finds them; after the body each
    input's buffer at its block and the output's at the product of the two; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.GatRegionB.lean ====
/-
  The attention call, region by itself, at ANY contents `V` of the core's buffers when the region is entered.
  Grid point (b, qi) stages query rows 512·qi … 512·qi+511 of batch b of the projected features, all 2048 key rows of
  batch b of the SAME array, and the whole adjacency mask; the body reads the mask's rows 512·qi … 512·qi+511 and stores
  one [1,512,128] block. The two windows on the projected features each hold a half of that array's share.
-/
import proofs.«142861_j43499428774616_2_alg».proof.Proof.Gen.Kernel.Launch
import proofs.«142861_j43499428774616_2_alg».proof.Proof.Gen.Kernel.Skeleton
import proofs.«142861_j43499428774616_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: the query, key and output buffers whole, the mask's 512 rows from the point's row offset. -/
abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0
abbrev r1_m (i : grid1.Coords) : Rect S2048x2048 := Rect.unit (s := S2048x2048) (k1_off1 i) S512x2048.size (k1_off1_inb i)

/-- The output's staging buffer after the body at grid coordinates `i`: the attention block of the staged query rows,
    key rows and the mask rows at the point's offset, stored whole. -/
def out1_3 (i : grid1.Coords) (x0 : Vec F S1x512x128 .f32) (x1 : Vec F S1x2048x128 .f32) (x2 : Vec F S2048x2048 .bf16) : Vec F S1x512x128 .f32 :=
  View.canon [⟨r1_q, k1_pay1 (View.ld x2 (r1_m i)) (View.ld x0 r1_q) (View.ld x1 r1_k)⟩]

/-- The one store covers the buffer. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

set_option maxHeartbeats 1000000 in
/-- The body on whole staging memrefs, the inputs' at read contents and the output's at anything, runs to the
    continuation holding the inputs' as they were and the output's at `out1_3` of them. -/
theorem sound_kernel1 (c : Dev nD) (E : Set ℕ) (i : grid1.Coords) (arg2 : Memref sig .tc .vmem S1x512x128 .f32) (harg2 : arg2.IsWhole)
    (arg3 : Memref sig .tc .vmem S1x2048x128 .f32) (harg3 : arg3.IsWhole) (arg4 : Memref sig .tc .vmem S2048x2048 .bf16) (harg4 : arg4.IsWhole)
    (arg5 : Memref sig .tc .vmem S1x512x128 .f32) (harg5 : arg5.IsWhole)
    (x0 : Vec F S1x512x128 .f32) (x1 : Vec F S1x2048x128 .f32) (x2 : Vec F S2048x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 i x0 x1 x2)) -∗ K ⟨⟩))
      ⊢ wp frame (wpE (defs₀ (F := F)) Variants.none c none) E (cc1__gat_kernel i arg2 harg2 arg3 harg3 arg4 harg4 arg5 harg5) K := by
  simp only [cc1__gat_kernel_eq_skeleton]; unfold cc1__gat_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the attention's pipeline on core `c`: the arrays as the region finds them; after the body each
    input's buffer at its block and the output's at the attention block of the three; nothing owed; the two windows on
    the projected features at the two halves of the full share, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem A1_0 (c : Dev nD) : (dat1 V c).A 0 = V c main_v18 := by dsimp only [dat1]
theorem A1_1 (c : Dev nD) : (dat1 V c).A 1 = V c main_v18 := by dsimp only [dat1]
theorem A1_2 (c : Dev nD) : (dat1 V c).A 2 = V c main_v15 := by dsimp only [dat1]
theorem A1_3 (c : Dev nD) : (dat1 V c).A 3 = V c main_v19 := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.GatArraysB.lean ====
/-
  The attention region's arrays against the core's unscoped buffers. Two of its four windows read ONE array, the
  projected features: at the region's entry that array's full share is cut into its two halves, one per window, and at the
  exit — both windows being inputs, which end holding what they were handed — the halves are joined again. The mask's
  array and the output's array belong to one window each and keep the full share.
-/
import proofs.«142861_j43499428774616_2_alg».proof.Proof.Gen.Kernel.Launch
import proofs.«142861_j43499428774616_2_alg».proof.Proof.Gen.Kernel.Skeleton
import proofs.«142861_j43499428774616_2_alg».proof.Proof.Gen.Kernel.Points
import proofs.«142861_j43499428774616_2_alg».proof.Proof.GatRegionB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's four windows are three. -/
theorem image_arr1 : Finset.univ.image (Pipeline.arrRef spec1) = ({main_v18, main_v15, main_v19} : Finset (Ref sig .tc)) := by decide

/-- A window's array, a whole buffer, held at a share. -/
theorem arrPt (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = (((c : Thread nD τ).loc (Pipeline.arrRef spec1 w)) ↦{q} f) := by
  rw [(arr_whole1 w).set_eq_univ]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

/-- The region's arrays at contents `G`, one window at a time. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v18) ↦{fullShare.left} G 0) ∗ (((c : Thread nD τ).loc main_v18) ↦{fullShare.right} G 1)
          ∗ (((c : Thread nD τ).loc main_v15) ↦{fullShare} G 2) ∗ (((c : Thread nD τ).loc main_v19) ↦{fullShare} G 3)) := by
  unfold Dat.arrays
  rw [bigSep_W1, arrPt, arrPt, arrPt, arrPt, share1_0, share1_1, share1_2, share1_3]

/-- The three buffers behind the arrays, each whole at the full share. -/
theorem arrBufs1_eq (c : Dev nD) (U : (b : Ref sig .tc) → Buf (Elt F) ((c : Thread nD τ).loc b)) :
    (Pipeline.arrBufs spec1 c U : sProp 𝕄)
      = iprop((((c : Thread nD τ).loc main_v18) ↦{fullShare} U main_v18) ∗ (((c : Thread nD τ).loc main_v15) ↦{fullShare} U main_v15)
          ∗ (((c : Thread nD τ).loc main_v19) ↦{fullShare} U main_v19)) := by
  unfold Pipeline.arrBufs
  rw [image_arr1, bigSep_insert (by decide), bigSep_insert (by decide), bigSep_singleton]
  rfl

/-- ENTRY: the core's unscoped buffers at `U` are the region's arrays at `U`'s contents, the shared array's share halved,
    and the unscoped rest. -/
theorem arrays_of_unscopedBufs1 (c : Dev nD) (U : (b : Ref sig .tc) → Buf (Elt F) ((c : Thread nD τ).loc b))
    (G : (w : Fin cfg1.W) → Buf (Elt F) ((cfg1.win w).arr.view.loc (c : Thread nD τ)))
    (h0 : G 0 = U main_v18) (h1 : G 1 = U main_v18) (h2 : G 2 = U main_v15) (h3 : G 3 = U main_v19) :
    (unscopedBufs c U : sProp 𝕄) ⊢ iprop((dat1 V c).arrays G ∗ Pipeline.unscopedRest spec1 c U) := by
  rw [Pipeline.unscopedBufs_split₀ (p := (1 : Fin 2)) cfgs winFacts₀1.arr_unscoped c U]
  change iprop(Pipeline.arrBufs spec1 c U ∗ Pipeline.unscopedRest spec1 c U) ⊢ _
  rw [arrays1_eq, arrBufs1_eq, h0, h1, h2, h3]
  iintro ⟨⟨H18, H15, H19⟩, Hr⟩
  ihave H := (pointsTo_share (PosShare.mem_left_op_right fullShare)).1 $$ H18
  icases H with ⟨Ha, Hb⟩
  isplitr [Hr]
  · isplitl [Ha]; · iexact Ha
    isplitl [Hb]; · iexact Hb
    isplitl [H15]; · iexact H15
    iexact H19
  iexact Hr

/-- EXIT: the region's arrays at `G`, the two windows on the shared array holding the same contents, and the unscoped rest
    at `U` are the core's unscoped buffers at any `U'` that has the arrays at `G` and agrees with `U` off them. -/
theorem unscopedBufs_of_arrays1 (c : Dev nD) (U U' : (b : Ref sig .tc) → Buf (Elt F) ((c : Thread nD τ).loc b))
    (G : (w : Fin cfg1.W) → Buf (Elt F) ((cfg1.win w).arr.view.loc (c : Thread nD τ)))
    (h0 : G 0 = U' main_v18) (h1 : G 1 = U' main_v18) (h2 : G 2 = U' main_v15) (h3 : G 3 = U' main_v19)
    (hrest : ∀ b, b ∉ Finset.univ.image (Pipeline.arrRef spec1) → U' b = U b) :
    iprop((dat1 V c).arrays G ∗ Pipeline.unscopedRest spec1 c U) ⊢ (unscopedBufs c U' : sProp 𝕄) := by
  rw [Pipeline.unscopedBufs_split₀ (p := (1 : Fin 2)) cfgs winFacts₀1.arr_unscoped c U']
  change _ ⊢ iprop(Pipeline.arrBufs spec1 c U' ∗ Pipeline.unscopedRest spec1 c U')
  rw [arrays1_eq, arrBufs1_eq, h0, h1, h2, h3,
    show Pipeline.unscopedRest spec1 c U' = (Pipeline.unscopedRest spec1 c U : sProp 𝕄) from by
      unfold Pipeline.unscopedRest
      exact bigSep_congr fun b hb => by rw [hrest b (Finset.mem_sdiff.mp hb).2]]
  iintro ⟨⟨Ha, Hb, H15, H19⟩, Hr⟩
  isplitr [Hr]
  · isplitl [Ha Hb]
    · iapply (pointsTo_share (PosShare.mem_left_op_right fullShare)).2
      isplitl [Ha]; · iexact Ha
      iexact Hb
    isplitl [H15]; · iexact H15
    iexact H19
  iexact Hr

end Cert.Kernel.Hand

end
-- ==== Proof.FrameRunB.lean ====
/-
  The whole program's run: host operations, the projection call, one reshape, the attention call. Core `c`'s
  buffer contents at each boundary are a fold from the launch memory — a host stretch applies its operations, the
  projection call leaves its output array at what its eight write-backs made of it, the attention call leaves ITS
  output array at what its sixty-four write-backs made of it — and every weakly fair execution ends with every
  unscoped buffer at the last boundary's contents. The argument arrays are written by no host operation and by no
  region, so the fold at an argument walks back to the launch memory.
-/
import proofs.«142861_j43499428774616_2_alg».proof.Proof.Gen.Kernel.Launch
import proofs.«142861_j43499428774616_2_alg».proof.Proof.Gen.Kernel.Skeleton
import proofs.«142861_j43499428774616_2_alg».proof.Proof.Gen.Kernel.Points
import proofs.«142861_j43499428774616_2_alg».proof.Proof.Gen.Kernel.Regions
import proofs.«142861_j43499428774616_2_alg».proof.Proof.ProjRegionB
import proofs.«142861_j43499428774616_2_alg».proof.Proof.GatArraysB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wa0 : Dev nD → Valuation τ sig (Elt F) := fun c b => (s₀ m ρ).mem ((c : Dev nD), b)
/-- After the first host stretch (the projection call's entry). -/
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b
/-- At the projection call's exit: its arrays at what the pipeline leaves, every other buffer as entered. -/
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

/-- After the reshape (the attention call's entry). -/
abbrev Wa3 : Dev nD → Valuation τ sig (Elt F) := fun c => StableHlo.after hostOps1 (Wa2 m ρ c)
abbrev Va3 : (c : Dev nD) → (b : Ref sig .tc) → Buf (Elt F) ((c : Thread nD τ).loc b) := fun c b => Wa3 m ρ c b
/-- At the attention call's exit: its output array at what the pipeline leaves, every other buffer as entered (its three
    other windows are inputs). -/
def Wa4 (c : Dev nD) : Valuation τ sig (Elt F) :=
  Function.update (Wa3 m ρ c) (Proc.devRef .tc main_v19) ((dat1 (Va3 m ρ) c).arrAt 3 cfg1.N)
abbrev Va4 : (c : Dev nD) → (b : Ref sig .tc) → Buf (Elt F) ((c : Thread nD τ).loc b) := fun c b => Wa4 m ρ c b
theorem Wa4_out (c : Dev nD) : Wa4 m ρ c (Proc.devRef .tc main_v19) = (dat1 (Va3 m ρ) c).arrAt 3 cfg1.N := by
  unfold Wa4; exact Function.update_self ..
theorem Wa4_of_ne (c : Dev nD) (b : Ref sig .tc) (hb : b ≠ main_v19) :
    Wa4 m ρ c (Proc.devRef .tc b) = Wa3 m ρ c (Proc.devRef .tc b) := by
  unfold Wa4; exact Function.update_of_ne (StableHlo.devRef_ne_of_ne hb) ..

/-- A buffer neither host stretch writes and no region's output: as launched. -/
theorem Wa4_kept (c : Dev nD) (b : Ref sig .tc) (h19 : b ≠ main_v19) (h1 : b ∉ hostOps1_W) (h17 : ∀ w, Pipeline.arrRef spec0 w ≠ b)
    (h0 : b ∉ hostOps0_W) : Wa4 m ρ c (Proc.devRef .tc b) = m ((c : Thread nD τ).loc b) :=
  (Wa4_of_ne m ρ c b h19).trans <| (StableHlo.after_of_writes_sub hostOps1 _ hostOps1_writes h1).trans <|
    (Wa2_of_ne m ρ c b h17).trans <| (StableHlo.after_of_writes_sub hostOps0 _ hostOps0_writes h0).trans rfl
theorem Wa4_main_arg0 (c : Dev nD) : Wa4 m ρ c (Proc.devRef .tc main_arg0) = m ((c : Thread nD τ).loc main_arg0) :=
  Wa4_kept m ρ c main_arg0 (by decide) (by decide) (by decide) (by decide)
theorem Wa4_main_arg2 (c : Dev nD) : Wa4 m ρ c (Proc.devRef .tc main_arg2) = m ((c : Thread nD τ).loc main_arg2) :=
  Wa4_kept m ρ c main_arg2 (by decide) (by decide) (by decide) (by decide)
theorem Wa4_main_arg3 (c : Dev nD) : Wa4 m ρ c (Proc.devRef .tc main_arg3) = m ((c : Thread nD τ).loc main_arg3) :=
  Wa4_kept m ρ c main_arg3 (by decide) (by decide) (by decide) (by decide)
/-- The weight is an INPUT array of the projection call: it leaves it as entered. -/
theorem Wa4_main_arg1 (c : Dev nD) : Wa4 m ρ c (Proc.devRef .tc main_arg1) = m ((c : Thread nD τ).loc main_arg1) :=
  (Wa4_of_ne m ρ c main_arg1 (by decide)).trans <| (StableHlo.after_of_writes_sub hostOps1 _ hostOps1_writes (by decide)).trans <|
    ((Wa2_arr m ρ c 1).trans (((dat0 (Va1 m ρ) c).arrAt_in 1 rfl _).trans (A_eq0 (Va1 m ρ) c 1))).trans <|
    (StableHlo.after_of_writes_sub hostOps0 _ hostOps0_writes (by decide)).trans rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (Va1 m ρ) c
  | ⟨1, _⟩ => fun c => dat1 (Va3 m ρ) c
abbrev 𝒱H : Variants := Variants.none
abbrev LH : GSem nD τ sig → Finset Unit := fun _ => ∅
abbrev lvH : GSem nD τ sig → Unit → ℕ := fun _ _ => 0
/-- What rides beside the buffers through every segment: the generator register at some state and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
/-- The projection call over the thread state: entered from every unscoped buffer at `Wa1`, left at `Wa2`. -/
def reg0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LH lvH 0 fun _ _ => rfl
  pre c := iprop(StableHlo.held (c : Thread nD τ) (Pipeline.ucRefs τ sig) (Wa1 m ρ c) ∗ RH c)
  post c := iprop(StableHlo.held (c : Thread nD τ) (Pipeline.ucRefs τ sig) (Wa2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (Va1 m ρ c) (Va2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `Wa3`, left at `Wa4`. Its arrays are
    cut out of the unscoped buffers with the shared array's share halved, and put back with the halves joined. -/
def reg1 : Pipeline.RegionSeg (pcfgs (F := F)) adm (pdatsH m ρ) () defs₀ 𝒱H LH lvH 1 where
  win := winFacts₀1
  block_pos := block_pos1
  stage_whole := stage_whole1
  K := PEmpty
  osem k := k.elim
  ho := Pipeline.OwnSemFacts.none _
  hbody c := (body_obligation1 (Va3 m ρ) c).loose
  hwaits := Pipeline.hwaits_of_owed_zero _ _ _ _ LH lvH 1 fun _ _ => rfl
  pre c := iprop(StableHlo.held (c : Thread nD τ) (Pipeline.ucRefs τ sig) (Wa3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit : (unscopedBufs c (Va3 m ρ c) : sProp 𝕄)
        ⊢ iprop((pdatsH m ρ 1 c).arrays ((pdatsH m ρ 1 c).arrAt · 0) ∗ Pipeline.unscopedRest spec1 c (Va3 m ρ c)) :=
      arrays_of_unscopedBufs1 (Va3 m ρ) c (Va3 m ρ c) ((dat1 (Va3 m ρ) c).arrAt · 0)
        (A1_0 (Va3 m ρ) c) (A1_1 (Va3 m ρ) c) (A1_2 (Va3 m ρ) c) (A1_3 (Va3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdatsH m ρ 1 c).arrays ((pdatsH m ρ 1 c).arrAt · cfg1.N) ∗ Pipeline.unscopedRest spec1 c (Va3 m ρ c))
        ⊢ (unscopedBufs c (Va4 m ρ c) : sProp 𝕄) :=
      unscopedBufs_of_arrays1 (Va3 m ρ) c (Va3 m ρ c) (Va4 m ρ c) ((dat1 (Va3 m ρ) c).arrAt · cfg1.N)
      (((dat1 (Va3 m ρ) c).arrAt_in 0 rfl _).trans ((A1_0 (Va3 m ρ) c).trans (Wa4_of_ne m ρ c main_v18 (by decide)).symm))
      (((dat1 (Va3 m ρ) c).arrAt_in 1 rfl _).trans ((A1_1 (Va3 m ρ) c).trans (Wa4_of_ne m ρ c main_v18 (by decide)).symm))
      (((dat1 (Va3 m ρ) c).arrAt_in 2 rfl _).trans ((A1_2 (Va3 m ρ) c).trans (Wa4_of_ne m ρ c main_v15 (by decide)).symm))
      (Wa4_out m ρ c).symm
      (fun b hb => Wa4_of_ne m ρ c b fun e => hb (e ▸ (by decide : main_v19 ∈ Finset.univ.image (Pipeline.arrRef spec1))))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm (pdatsH m ρ) () defs₀ 𝒱H LH lvH) :=
  [ .host (hsegH hostOps0 hostOps0_sub hostOps0_fresh (Wa0 m ρ)),
    .region (reg0 m ρ),
    .host (hsegH hostOps1 hostOps1_sub hostOps1_fresh (Wa2 m ρ)),
    .region (reg1 m ρ) ]
theorem main_run (c : Dev nD) : main (F := F) c = Pipeline.Seg.run (segsH m ρ) := (main_chain c).trans (by chain_rfl)

set_option backward.isDefEq.respectTransparency.types false in
/-- THE RUN, at any float instance: from any memory with zero counters every weakly fair execution of the program on
    the TensorCores terminates, nothing faulting, and every final state holds each unscoped buffer at the last boundary's
    contents `Wa4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wa4 m ρ c b) :=
  Pipeline.θ_run_regions_kit (pcfgs (F := F)) adm (pdatsH m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wa4_main_arg0 m ρ c),
     (h c _ (mem_uc main_arg1 (by decide))).trans (Wa4_main_arg1 m ρ c),
     (h c _ (mem_uc main_arg2 (by decide))).trans (Wa4_main_arg2 m ρ c),
     (h c _ (mem_uc main_arg3 (by decide))).trans (Wa4_main_arg3 m ρ c)⟩) (run m ρ)

/-- The result: the output array ends at what the attention call's write-backs leave, the arguments as launched. -/
theorem result : θ_run defs (onTc (τ := τ) (main (F := F))) ⟨m, fun _ => 0, ρ⟩ (fun r => ∀ c : Dev nD,
      r.2.mem ((c.tc : Thread nD τ).loc main_v19) = (dat1 (Va3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v19 (by decide))).trans (Wa4_out m ρ c),
     (h c _ (mem_uc main_arg0 (by decide))).trans (Wa4_main_arg0 m ρ c),
     (h c _ (mem_uc main_arg1 (by decide))).trans (Wa4_main_arg1 m ρ c),
     (h c _ (mem_uc main_arg2 (by decide))).trans (Wa4_main_arg2 m ρ c),
     (h c _ (mem_uc main_arg3 (by decide))).trans (Wa4_main_arg3 m ρ c)⟩) (run m ρ)

end Cert.Kernel.Hand

end
-- ==== Proof.ProjRegionI.lean ====
/-
  The projection call, region by itself, at ANY contents `V` of the core's buffers when the region is entered.
  A grid point t stages rows 4096·t … 4096·t+4095 of the flattened features and the whole weight, and the body
  stores one matrix product of the two staged blocks over the whole output block: what the output's staging buffer
  holds after the body is that product, a function of the two input blocks alone.
-/
import proofs.«142861_j43499428774616_2_alg».proof.Proof.Gen.KernelIdeal.Launch
import proofs.«142861_j43499428774616_2_alg».proof.Proof.Gen.KernelIdeal.Skeleton
import proofs.«142861_j43499428774616_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_a : Rect S4096x128 := Rect.unit (s := S4096x128) ![0, 0] S4096x128.size inb_S4096x128_S4096x128_0_0
abbrev r0_w : Rect S128x128 := Rect.unit (s := S128x128) ![0, 0] S128x128.size inb_S128x128_S128x128_0_0

/-- The output's staging buffer after the body: the product of the two staged blocks, stored whole. -/
def out0_2 (x0 : Vec F S4096x128 .f32) (x1 : Vec F S128x128 .f32) : Vec F S4096x128 .f32 :=
  View.canon [⟨r0_a, k0_pay1 (View.ld x0 r0_a) (View.ld x1 r0_w)⟩]

/-- The one store covers the buffer. -/
theorem cover0_2 (p0 : Vec F S4096x128 .f32) (y : S4096x128.Idx) :
    ∃ pc ∈ ([⟨r0_a, p0⟩] : List (View.Piece (Elt F) S4096x128 .f32)), y ∈ pc.1.set :=
  View.cover_of_tiled [⟨r0_a, p0⟩] S4096x128.size (by rfl) y

set_option maxHeartbeats 1000000 in
/-- The body on whole staging memrefs, the inputs' at read contents and the output's at anything, runs to the
    continuation holding the inputs' as they were and the output's at `out0_2` of them. -/
theorem sound_kernel0 (c : Dev nD) (E : Set ℕ) (i : grid0.Coords) (arg1 : Memref sig .tc .vmem S4096x128 .f32) (harg1 : arg1.IsWhole)
    (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection's pipeline on core `c`: the arrays as the region finds them; after the body each
    input's buffer at its block and the output's at the product of the two; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.GatRegionI.lean ====
/-
  The attention call, region by itself, at ANY contents `V` of the core's buffers when the region is entered.
  Grid point (b, qi) stages query rows 512·qi … 512·qi+511 of batch b of the projected features, all 2048 key rows of
  batch b of the SAME array, and the whole adjacency mask; the body reads the mask's rows 512·qi … 512·qi+511 and stores
  one [1,512,128] block. The two windows on the projected features each hold a half of that array's share.
-/
import proofs.«142861_j43499428774616_2_alg».proof.Proof.Gen.KernelIdeal.Launch
import proofs.«142861_j43499428774616_2_alg».proof.Proof.Gen.KernelIdeal.Skeleton
import proofs.«142861_j43499428774616_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: the query, key and output buffers whole, the mask's 512 rows from the point's row offset. -/
abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0
abbrev r1_m (i : grid1.Coords) : Rect S2048x2048 := Rect.unit (s := S2048x2048) (k1_off1 i) S512x2048.size (k1_off1_inb i)

/-- The output's staging buffer after the body at grid coordinates `i`: the attention block of the staged query rows,
    key rows and the mask rows at the point's offset, stored whole. -/
def out1_3 (i : grid1.Coords) (x0 : Vec F S1x512x128 .f32) (x1 : Vec F S1x2048x128 .f32) (x2 : Vec F S2048x2048 .bf16) : Vec F S1x512x128 .f32 :=
  View.canon [⟨r1_q, k1_pay1 (View.ld x2 (r1_m i)) (View.ld x0 r1_q) (View.ld x1 r1_k)⟩]

/-- The one store covers the buffer. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

set_option maxHeartbeats 1000000 in
/-- The body on whole staging memrefs, the inputs' at read contents and the output's at anything, runs to the
    continuation holding the inputs' as they were and the output's at `out1_3` of them. -/
theorem sound_kernel1 (c : Dev nD) (E : Set ℕ) (i : grid1.Coords) (arg2 : Memref sig .tc .vmem S1x512x128 .f32) (harg2 : arg2.IsWhole)
    (arg3 : Memref sig .tc .vmem S1x2048x128 .f32) (harg3 : arg3.IsWhole) (arg4 : Memref sig .tc .vmem S2048x2048 .bf16) (harg4 : arg4.IsWhole)
    (arg5 : Memref sig .tc .vmem S1x512x128 .f32) (harg5 : arg5.IsWhole)
    (x0 : Vec F S1x512x128 .f32) (x1 : Vec F S1x2048x128 .f32) (x2 : Vec F S2048x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 i x0 x1 x2)) -∗ K ⟨⟩))
      ⊢ wp frame (wpE (defs₀ (F := F)) Variants.none c none) E (cc1__gat_kernel i arg2 harg2 arg3 harg3 arg4 harg4 arg5 harg5) K := by
  simp only [cc1__gat_kernel_eq_skeleton]; unfold cc1__gat_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the attention's pipeline on core `c`: the arrays as the region finds them; after the body each
    input's buffer at its block and the output's at the attention block of the three; nothing owed; the two windows on
    the projected features at the two halves of the full share, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem A1_0 (c : Dev nD) : (dat1 V c).A 0 = V c main_v18 := by dsimp only [dat1]
theorem A1_1 (c : Dev nD) : (dat1 V c).A 1 = V c main_v18 := by dsimp only [dat1]
theorem A1_2 (c : Dev nD) : (dat1 V c).A 2 = V c main_v15 := by dsimp only [dat1]
theorem A1_3 (c : Dev nD) : (dat1 V c).A 3 = V c main_v19 := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.GatArraysI.lean ====
/-
  The attention region's arrays against the core's unscoped buffers. Two of its four windows read ONE array, the
  projected features: at the region's entry that array's full share is cut into its two halves, one per window, and at the
  exit — both windows being inputs, which end holding what they were handed — the halves are joined again. The mask's
  array and the output's array belong to one window each and keep the full share.
-/
import proofs.«142861_j43499428774616_2_alg».proof.Proof.Gen.KernelIdeal.Launch
import proofs.«142861_j43499428774616_2_alg».proof.Proof.Gen.KernelIdeal.Skeleton
import proofs.«142861_j43499428774616_2_alg».proof.Proof.Gen.KernelIdeal.Points
import proofs.«142861_j43499428774616_2_alg».proof.Proof.GatRegionI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's four windows are three. -/
theorem image_arr1 : Finset.univ.image (Pipeline.arrRef spec1) = ({main_v18, main_v15, main_v19} : Finset (Ref sig .tc)) := by decide

/-- A window's array, a whole buffer, held at a share. -/
theorem arrPt (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = (((c : Thread nD τ).loc (Pipeline.arrRef spec1 w)) ↦{q} f) := by
  rw [(arr_whole1 w).set_eq_univ]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

/-- The region's arrays at contents `G`, one window at a time. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v18) ↦{fullShare.left} G 0) ∗ (((c : Thread nD τ).loc main_v18) ↦{fullShare.right} G 1)
          ∗ (((c : Thread nD τ).loc main_v15) ↦{fullShare} G 2) ∗ (((c : Thread nD τ).loc main_v19) ↦{fullShare} G 3)) := by
  unfold Dat.arrays
  rw [bigSep_W1, arrPt, arrPt, arrPt, arrPt, share1_0, share1_1, share1_2, share1_3]

/-- The three buffers behind the arrays, each whole at the full share. -/
theorem arrBufs1_eq (c : Dev nD) (U : (b : Ref sig .tc) → Buf (Elt F) ((c : Thread nD τ).loc b)) :
    (Pipeline.arrBufs spec1 c U : sProp 𝕄)
      = iprop((((c : Thread nD τ).loc main_v18) ↦{fullShare} U main_v18) ∗ (((c : Thread nD τ).loc main_v15) ↦{fullShare} U main_v15)
          ∗ (((c : Thread nD τ).loc main_v19) ↦{fullShare} U main_v19)) := by
  unfold Pipeline.arrBufs
  rw [image_arr1, bigSep_insert (by decide), bigSep_insert (by decide), bigSep_singleton]
  rfl

/-- ENTRY: the core's unscoped buffers at `U` are the region's arrays at `U`'s contents, the shared array's share halved,
    and the unscoped rest. -/
theorem arrays_of_unscopedBufs1 (c : Dev nD) (U : (b : Ref sig .tc) → Buf (Elt F) ((c : Thread nD τ).loc b))
    (G : (w : Fin cfg1.W) → Buf (Elt F) ((cfg1.win w).arr.view.loc (c : Thread nD τ)))
    (h0 : G 0 = U main_v18) (h1 : G 1 = U main_v18) (h2 : G 2 = U main_v15) (h3 : G 3 = U main_v19) :
    (unscopedBufs c U : sProp 𝕄) ⊢ iprop((dat1 V c).arrays G ∗ Pipeline.unscopedRest spec1 c U) := by
  rw [Pipeline.unscopedBufs_split₀ (p := (1 : Fin 2)) cfgs winFacts₀1.arr_unscoped c U]
  change iprop(Pipeline.arrBufs spec1 c U ∗ Pipeline.unscopedRest spec1 c U) ⊢ _
  rw [arrays1_eq, arrBufs1_eq, h0, h1, h2, h3]
  iintro ⟨⟨H18, H15, H19⟩, Hr⟩
  ihave H := (pointsTo_share (PosShare.mem_left_op_right fullShare)).1 $$ H18
  icases H with ⟨Ha, Hb⟩
  isplitr [Hr]
  · isplitl [Ha]; · iexact Ha
    isplitl [Hb]; · iexact Hb
    isplitl [H15]; · iexact H15
    iexact H19
  iexact Hr

/-- EXIT: the region's arrays at `G`, the two windows on the shared array holding the same contents, and the unscoped rest
    at `U` are the core's unscoped buffers at any `U'` that has the arrays at `G` and agrees with `U` off them. -/
theorem unscopedBufs_of_arrays1 (c : Dev nD) (U U' : (b : Ref sig .tc) → Buf (Elt F) ((c : Thread nD τ).loc b))
    (G : (w : Fin cfg1.W) → Buf (Elt F) ((cfg1.win w).arr.view.loc (c : Thread nD τ)))
    (h0 : G 0 = U' main_v18) (h1 : G 1 = U' main_v18) (h2 : G 2 = U' main_v15) (h3 : G 3 = U' main_v19)
    (hrest : ∀ b, b ∉ Finset.univ.image (Pipeline.arrRef spec1) → U' b = U b) :
    iprop((dat1 V c).arrays G ∗ Pipeline.unscopedRest spec1 c U) ⊢ (unscopedBufs c U' : sProp 𝕄) := by
  rw [Pipeline.unscopedBufs_split₀ (p := (1 : Fin 2)) cfgs winFacts₀1.arr_unscoped c U']
  change _ ⊢ iprop(Pipeline.arrBufs spec1 c U' ∗ Pipeline.unscopedRest spec1 c U')
  rw [arrays1_eq, arrBufs1_eq, h0, h1, h2, h3,
    show Pipeline.unscopedRest spec1 c U' = (Pipeline.unscopedRest spec1 c U : sProp 𝕄) from by
      unfold Pipeline.unscopedRest
      exact bigSep_congr fun b hb => by rw [hrest b (Finset.mem_sdiff.mp hb).2]]
  iintro ⟨⟨Ha, Hb, H15, H19⟩, Hr⟩
  isplitr [Hr]
  · isplitl [Ha Hb]
    · iapply (pointsTo_share (PosShare.mem_left_op_right fullShare)).2
      isplitl [Ha]; · iexact Ha
      iexact Hb
    isplitl [H15]; · iexact H15
    iexact H19
  iexact Hr

end Cert.KernelIdeal.Hand

end
-- ==== Proof.FrameRunI.lean ====
/-
  The whole program's run: host operations, the projection call, one reshape, the attention call. Core `c`'s
  buffer contents at each boundary are a fold from the launch memory — a host stretch applies its operations, the
  projection call leaves its output array at what its eight write-backs made of it, the attention call leaves ITS
  output array at what its sixty-four write-backs made of it — and every weakly fair execution ends with every
  unscoped buffer at the last boundary's contents. The argument arrays are written by no host operation and by no
  region, so the fold at an argument walks back to the launch memory.
-/
import proofs.«142861_j43499428774616_2_alg».proof.Proof.Gen.KernelIdeal.Launch
import proofs.«142861_j43499428774616_2_alg».proof.Proof.Gen.KernelIdeal.Skeleton
import proofs.«142861_j43499428774616_2_alg».proof.Proof.Gen.KernelIdeal.Points
import proofs.«142861_j43499428774616_2_alg».proof.Proof.Gen.KernelIdeal.Regions
import proofs.«142861_j43499428774616_2_alg».proof.Proof.ProjRegionI
import proofs.«142861_j43499428774616_2_alg».proof.Proof.GatArraysI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wa0 : Dev nD → Valuation τ sig (Elt F) := fun c b => (s₀ m ρ).mem ((c : Dev nD), b)
/-- After the first host stretch (the projection call's entry). -/
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b
/-- At the projection call's exit: its arrays at what the pipeline leaves, every other buffer as entered. -/
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

/-- After the reshape (the attention call's entry). -/
abbrev Wa3 : Dev nD → Valuation τ sig (Elt F) := fun c => StableHlo.after hostOps1 (Wa2 m ρ c)
abbrev Va3 : (c : Dev nD) → (b : Ref sig .tc) → Buf (Elt F) ((c : Thread nD τ).loc b) := fun c b => Wa3 m ρ c b
/-- At the attention call's exit: its output array at what the pipeline leaves, every other buffer as entered (its three
    other windows are inputs). -/
def Wa4 (c : Dev nD) : Valuation τ sig (Elt F) :=
  Function.update (Wa3 m ρ c) (Proc.devRef .tc main_v19) ((dat1 (Va3 m ρ) c).arrAt 3 cfg1.N)
abbrev Va4 : (c : Dev nD) → (b : Ref sig .tc) → Buf (Elt F) ((c : Thread nD τ).loc b) := fun c b => Wa4 m ρ c b
theorem Wa4_out (c : Dev nD) : Wa4 m ρ c (Proc.devRef .tc main_v19) = (dat1 (Va3 m ρ) c).arrAt 3 cfg1.N := by
  unfold Wa4; exact Function.update_self ..
theorem Wa4_of_ne (c : Dev nD) (b : Ref sig .tc) (hb : b ≠ main_v19) :
    Wa4 m ρ c (Proc.devRef .tc b) = Wa3 m ρ c (Proc.devRef .tc b) := by
  unfold Wa4; exact Function.update_of_ne (StableHlo.devRef_ne_of_ne hb) ..

/-- A buffer neither host stretch writes and no region's output: as launched. -/
theorem Wa4_kept (c : Dev nD) (b : Ref sig .tc) (h19 : b ≠ main_v19) (h1 : b ∉ hostOps1_W) (h17 : ∀ w, Pipeline.arrRef spec0 w ≠ b)
    (h0 : b ∉ hostOps0_W) : Wa4 m ρ c (Proc.devRef .tc b) = m ((c : Thread nD τ).loc b) :=
  (Wa4_of_ne m ρ c b h19).trans <| (StableHlo.after_of_writes_sub hostOps1 _ hostOps1_writes h1).trans <|
    (Wa2_of_ne m ρ c b h17).trans <| (StableHlo.after_of_writes_sub hostOps0 _ hostOps0_writes h0).trans rfl
theorem Wa4_main_arg0 (c : Dev nD) : Wa4 m ρ c (Proc.devRef .tc main_arg0) = m ((c : Thread nD τ).loc main_arg0) :=
  Wa4_kept m ρ c main_arg0 (by decide) (by decide) (by decide) (by decide)
theorem Wa4_main_arg2 (c : Dev nD) : Wa4 m ρ c (Proc.devRef .tc main_arg2) = m ((c : Thread nD τ).loc main_arg2) :=
  Wa4_kept m ρ c main_arg2 (by decide) (by decide) (by decide) (by decide)
theorem Wa4_main_arg3 (c : Dev nD) : Wa4 m ρ c (Proc.devRef .tc main_arg3) = m ((c : Thread nD τ).loc main_arg3) :=
  Wa4_kept m ρ c main_arg3 (by decide) (by decide) (by decide) (by decide)
/-- The weight is an INPUT array of the projection call: it leaves it as entered. -/
theorem Wa4_main_arg1 (c : Dev nD) : Wa4 m ρ c (Proc.devRef .tc main_arg1) = m ((c : Thread nD τ).loc main_arg1) :=
  (Wa4_of_ne m ρ c main_arg1 (by decide)).trans <| (StableHlo.after_of_writes_sub hostOps1 _ hostOps1_writes (by decide)).trans <|
    ((Wa2_arr m ρ c 1).trans (((dat0 (Va1 m ρ) c).arrAt_in 1 rfl _).trans (A_eq0 (Va1 m ρ) c 1))).trans <|
    (StableHlo.after_of_writes_sub hostOps0 _ hostOps0_writes (by decide)).trans rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (Va1 m ρ) c
  | ⟨1, _⟩ => fun c => dat1 (Va3 m ρ) c
abbrev 𝒱H : Variants := Variants.none
abbrev LH : GSem nD τ sig → Finset Unit := fun _ => ∅
abbrev lvH : GSem nD τ sig → Unit → ℕ := fun _ _ => 0
/-- What rides beside the buffers through every segment: the generator register at some state and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
/-- The projection call over the thread state: entered from every unscoped buffer at `Wa1`, left at `Wa2`. -/
def reg0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LH lvH 0 fun _ _ => rfl
  pre c := iprop(StableHlo.held (c : Thread nD τ) (Pipeline.ucRefs τ sig) (Wa1 m ρ c) ∗ RH c)
  post c := iprop(StableHlo.held (c : Thread nD τ) (Pipeline.ucRefs τ sig) (Wa2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (Va1 m ρ c) (Va2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `Wa3`, left at `Wa4`. Its arrays are
    cut out of the unscoped buffers with the shared array's share halved, and put back with the halves joined. -/
def reg1 : Pipeline.RegionSeg (pcfgs (F := F)) adm (pdatsH m ρ) () defs₀ 𝒱H LH lvH 1 where
  win := winFacts₀1
  block_pos := block_pos1
  stage_whole := stage_whole1
  K := PEmpty
  osem k := k.elim
  ho := Pipeline.OwnSemFacts.none _
  hbody c := (body_obligation1 (Va3 m ρ) c).loose
  hwaits := Pipeline.hwaits_of_owed_zero _ _ _ _ LH lvH 1 fun _ _ => rfl
  pre c := iprop(StableHlo.held (c : Thread nD τ) (Pipeline.ucRefs τ sig) (Wa3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit : (unscopedBufs c (Va3 m ρ c) : sProp 𝕄)
        ⊢ iprop((pdatsH m ρ 1 c).arrays ((pdatsH m ρ 1 c).arrAt · 0) ∗ Pipeline.unscopedRest spec1 c (Va3 m ρ c)) :=
      arrays_of_unscopedBufs1 (Va3 m ρ) c (Va3 m ρ c) ((dat1 (Va3 m ρ) c).arrAt · 0)
        (A1_0 (Va3 m ρ) c) (A1_1 (Va3 m ρ) c) (A1_2 (Va3 m ρ) c) (A1_3 (Va3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdatsH m ρ 1 c).arrays ((pdatsH m ρ 1 c).arrAt · cfg1.N) ∗ Pipeline.unscopedRest spec1 c (Va3 m ρ c))
        ⊢ (unscopedBufs c (Va4 m ρ c) : sProp 𝕄) :=
      unscopedBufs_of_arrays1 (Va3 m ρ) c (Va3 m ρ c) (Va4 m ρ c) ((dat1 (Va3 m ρ) c).arrAt · cfg1.N)
      (((dat1 (Va3 m ρ) c).arrAt_in 0 rfl _).trans ((A1_0 (Va3 m ρ) c).trans (Wa4_of_ne m ρ c main_v18 (by decide)).symm))
      (((dat1 (Va3 m ρ) c).arrAt_in 1 rfl _).trans ((A1_1 (Va3 m ρ) c).trans (Wa4_of_ne m ρ c main_v18 (by decide)).symm))
      (((dat1 (Va3 m ρ) c).arrAt_in 2 rfl _).trans ((A1_2 (Va3 m ρ) c).trans (Wa4_of_ne m ρ c main_v15 (by decide)).symm))
      (Wa4_out m ρ c).symm
      (fun b hb => Wa4_of_ne m ρ c b fun e => hb (e ▸ (by decide : main_v19 ∈ Finset.univ.image (Pipeline.arrRef spec1))))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm (pdatsH m ρ) () defs₀ 𝒱H LH lvH) :=
  [ .host (hsegH hostOps0 hostOps0_sub hostOps0_fresh (Wa0 m ρ)),
    .region (reg0 m ρ),
    .host (hsegH hostOps1 hostOps1_sub hostOps1_fresh (Wa2 m ρ)),
    .region (reg1 m ρ) ]
theorem main_run (c : Dev nD) : main (F := F) c = Pipeline.Seg.run (segsH m ρ) := (main_chain c).trans (by chain_rfl)

set_option backward.isDefEq.respectTransparency.types false in
/-- THE RUN, at any float instance: from any memory with zero counters every weakly fair execution of the program on
    the TensorCores terminates, nothing faulting, and every final state holds each unscoped buffer at the last boundary's
    contents `Wa4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Wa4 m ρ c b) :=
  Pipeline.θ_run_regions_kit (pcfgs (F := F)) adm (pdatsH m ρ) () cellOf_inj emb₁ defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wa4_main_arg0 m ρ c),
     (h c _ (mem_uc main_arg1 (by decide))).trans (Wa4_main_arg1 m ρ c),
     (h c _ (mem_uc main_arg2 (by decide))).trans (Wa4_main_arg2 m ρ c),
     (h c _ (mem_uc main_arg3 (by decide))).trans (Wa4_main_arg3 m ρ c)⟩) (run m ρ)

/-- The result: the output array ends at what the attention call's write-backs leave, the arguments as launched. -/
theorem result : θ_run defs (onTc (τ := τ) (main (F := F))) ⟨m, fun _ => 0, ρ⟩ (fun r => ∀ c : Dev nD,
      r.2.mem ((c.tc : Thread nD τ).loc main_v19) = (dat1 (Va3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v19 (by decide))).trans (Wa4_out m ρ c),
     (h c _ (mem_uc main_arg0 (by decide))).trans (Wa4_main_arg0 m ρ c),
     (h c _ (mem_uc main_arg1 (by decide))).trans (Wa4_main_arg1 m ρ c),
     (h c _ (mem_uc main_arg2 (by decide))).trans (Wa4_main_arg2 m ρ c),
     (h c _ (mem_uc main_arg3 (by decide))).trans (Wa4_main_arg3 m ρ c)⟩) (run m ρ)

end Cert.KernelIdeal.Hand

end
-- ==== Proof.ProjValue.lean ====
/-
  What the projection call leaves in its output array, over the extended reals: the flattened features times the weight,
  row by row. Grid point t writes rows 4096·t … 4096·t+4095; the eight blocks tile the 32768 rows, so the array ends
  holding the product everywhere.
-/
import proofs.«142861_j43499428774616_2_alg».proof.Proof.ProjRegionI
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The flattened projection: entry (r, d) is Σ_f a[r,f] · w[f,d]. -/
def Gproj (a : S32768x128.Idx → EReal) (w : S128x128.Idx → EReal) : S32768x128.Idx → EReal :=
  fun i => ∑ f : Fin 128, a (ix2 (⟨(i 0).val, (i 0).isLt⟩ : Fin 32768) f) * w (ix2 f (⟨(i 1).val, (i 1).isLt⟩ : Fin 128))

/-- The printed index maps, decided over the grid: the features' and the output's blocks move together down the rows, the
    weight's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the product of the arrays as the region finds them. -/
theorem flushed0_eq
    (hpay : ∀ (v0 : Vec Ideal S4096x128 .f32) (v3 : Vec Ideal S128x128 .f32) (r : Fin 4096) (d : Fin 128),
      k0_pay1 (F := Ideal) v0 v3 (ix2 r d) = ∑ f : Fin 128, v0 (ix2 r f) * v3 (ix2 f d))
    (c : Dev nD) (t : Fin cfg0.N) :
    (dat0 V c).flushed 2 t = ((cfg0.win 2).blk t).view.read (Elt Ideal) (Gproj (V c main_v16) (V c main_arg1)) := by
  show (cfg0.win 2).cut (grid0.coords t) ((dat0 V c).after 2 t) = _
  rw [after0_2]
  unfold out0_2
  rw [View.canon_unit_zero hz2]
  simp only [View.ld_unit_zero (S := S4096x128) hz2, View.ld_unit_zero (S := S128x128) hz2]
  obtain ⟨e0, e1, e2, e3, e4, e5⟩ := idx_facts0 t
  funext j
  obtain ⟨r, d, rfl⟩ : ∃ (r : Fin 4096) (d : Fin 128), j = ix2 r d := ⟨j 0, j 1, eq_ix2 j⟩
  refine (hpay _ _ r d).trans ?_
  let A : S32768x128.Idx → EReal := V c main_v16
  let B : S128x128.Idx → EReal := V c main_arg1
  show ∑ f : Fin 128, A (((cfg0.win 0).blk t).view.emb (ix2 r f)) * B (((cfg0.win 1).blk t).view.emb (ix2 f d))
    = Gproj A B (((cfg0.win 2).blk t).view.emb (ix2 r d))
  unfold Gproj
  refine Finset.sum_congr rfl fun f _ => ?_
  have ha : ((cfg0.win 0).blk t).view.emb (ix2 r f)
      = ix2 (⟨((((cfg0.win 2).blk t).view.emb (ix2 r d)) 0).val, ((((cfg0.win 2).blk t).view.emb (ix2 r d)) 0).isLt⟩ : Fin 32768) f := by
    funext a; apply Fin.ext
    match a with
    | ⟨0, _⟩ => show win0_0.index t (0 : Fin 2) * 4096 + 1 * r.val = win0_2.index t (0 : Fin 2) * 4096 + 1 * r.val; omega
    | ⟨1, _⟩ => show win0_0.index t (1 : Fin 2) * 128 + 1 * f.val = f.val; omega
  have hw : ((cfg0.win 1).blk t).view.emb (ix2 f d)
      = ix2 f (⟨((((cfg0.win 2).blk t).view.emb (ix2 r d)) 1).val, ((((cfg0.win 2).blk t).view.emb (ix2 r d)) 1).isLt⟩ : Fin 128) := by
    funext a; apply Fin.ext
    match a with
    | ⟨0, _⟩ => show win0_1.index t (0 : Fin 2) * 128 + 1 * f.val = f.val; omega
    | ⟨1, _⟩ => show win0_1.index t (1 : Fin 2) * 128 + 1 * d.val = win0_2.index t (1 : Fin 2) * 128 + 1 * d.val; omega
  rw [ha, hw]

/-- An index of the array is in point `t`'s block iff each coordinate is in the block's range on its axis. -/
theorem mem_blk0 (t : Fin cfg0.N) (i : S32768x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v17).slice (win0_2.rect t)).set ↔ _
  rw [View.set_slice_whole, Rect.mem_set_unit]
  exact Iff.rfl

/-- The blocks tile the array: row r is in the block of point r / 4096. -/
theorem cover0 (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  obtain ⟨t, ht⟩ := idx_onto0 ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The output array after the projection call: the product of the arrays as the region finds them. -/
theorem final0
    (hpay : ∀ (v0 : Vec Ideal S4096x128 .f32) (v3 : Vec Ideal S128x128 .f32) (r : Fin 4096) (d : Fin 128),
      k0_pay1 (F := Ideal) v0 v3 (ix2 r d) = ∑ f : Fin 128, v0 (ix2 r f) * v3 (ix2 f d))
    (c : Dev nD) : (dat0 V c).arrAt 2 cfg0.N = Gproj (V c main_v16) (V c main_arg1) :=
  (dat0 V c).arrAt_eq_of_cover 2 _ (fun t _ => flushed0_eq V hpay c t) cover0

end Cert.KernelIdeal.HandV

end
-- ==== Proof.Spec.lean ====
/-
  The attention layer as two index-by-index functions of the argument arrays, over the extended reals.

  Both start from the projection  z[b,n,d] = Σ_f h[b,n,f] · W[f,d]  and the scores
  s[b,q,n] = Σ_d z[b,q,d] · z[b,n,d], pass each score through the leaky rectifier
  (s if 0 < s, else slope · s), and replace by a large negative fill every logit whose edge is absent
  from the adjacency mask or whose score is exactly zero.  They differ in how that test is spelt and in
  where the softmax's normalisation happens:

    * `outK`: the test is  (mask ≠ 0) ∧ (s ≠ 0);  the unnormalised weights  w = exp (logit − rowmax)
      multiply z first and the row sum divides the small result:  (Σ_n w[n] · z[n,d]) / (Σ_n w[n]).
    * `outR`: the test is  leaky(s) · mask = 0;  each weight is divided by the row sum before it
      multiplies z:  Σ_n (w[n] / Σ_n' w[n']) · z[n,d].

  For a mask of zeros and ones and finite h, W the two agree (a row's weights lie in (0,1] and one of
  them is 1, so the row sum is a positive real and division distributes over the finite sum).
-/
import Idealize.ShloMosaic.PureOps.Ideal
import Idealize.ShloMosaic.PureOps.Ideal.Laws
import Idealize.ShloMosaic.Lib.ValueIdx

noncomputable section

namespace Cert.GatSpec

open Idealize.ShloMosaic Idealize.ShloMosaic.ValueIdx

/-- The node features' shape, the weight's and the adjacency mask's. -/
abbrev Sh : Shape := ⟨3, ![16, 2048, 128]⟩
abbrev Sw : Shape := ⟨2, ![128, 128]⟩
abbrev Sm : Shape := ⟨2, ![2048, 2048]⟩

/-- The rectifier's slope on the negative side: the f32 nearest one tenth. -/
def slope : EReal := Ideal.ofBits .f32 0x3DCCCCCD#32
/-- The fill of a masked logit: the f32 nearest −10¹⁶. -/
def fill : EReal := Ideal.ofBits .f32 0xDA0E1BCA#32

/-- The leaky rectifier: `s` where `0 < s`, else `slope · s`. -/
def leaky (s : EReal) : EReal := Scalar.select (Ideal.cmp .ogt s 0) s (slope * s)

/-- A row's maximum, from the lattice's bottom. -/
def rowMax (x : Fin 2048 → EReal) : EReal := (Finset.univ : Finset (Fin 2048)).fold max ⊥ x

variable (h : Sh.Idx → EReal) (W : Sw.Idx → EReal) (mk : Sm.Idx → EReal)

/-- The projected features z[b,n,d]. -/
def proj (b : Fin 16) (n : Fin 2048) (d : Fin 128) : EReal := ∑ f : Fin 128, h (ix3 b n f) * W (ix2 f d)

/-- The inner-product score s[b,q,n]. -/
def score (b : Fin 16) (q n : Fin 2048) : EReal := ∑ d : Fin 128, proj h W b q d * proj h W b n d

/-- The masked logit, the test spelt as (mask ≠ 0) ∧ (s ≠ 0). -/
def logitK (b : Fin 16) (q n : Fin 2048) : EReal :=
  Scalar.select (IntOp.andi (Ideal.cmp .one (mk (ix2 q n)) 0) (Ideal.cmp .one (score h W b q n) 0))
    (leaky (score h W b q n)) fill

/-- The masked logit, the test spelt as leaky(s) · mask = 0. -/
def logitR (b : Fin 16) (q n : Fin 2048) : EReal :=
  Scalar.select (Ideal.cmp .oeq (leaky (score h W b q n) * mk (ix2 q n)) 0) fill (leaky (score h W b q n) * mk (ix2 q n))

/-- The unnormalised softmax weight of either form. -/
def wK (b : Fin 16) (q n : Fin 2048) : EReal := Ideal.exp (logitK h W mk b q n - rowMax (logitK h W mk b q))
def wR (b : Fin 16) (q n : Fin 2048) : EReal := Ideal.exp (logitR h W mk b q n - rowMax (logitR h W mk b q))

/-- Normalise after aggregating. -/
def outK (b : Fin 16) (q : Fin 2048) (d : Fin 128) : EReal :=
  Ideal.div (∑ n : Fin 2048, wK h W mk b q n * proj h W b n d) (∑ n : Fin 2048, wK h W mk b q n)

/-- Normalise, then aggregate. -/
def outR (b : Fin 16) (q : Fin 2048) (d : Fin 128) : EReal :=
  ∑ n : Fin 2048, Ideal.div (wR h W mk b q n) (∑ n' : Fin 2048, wR h W mk b q n') * proj h W b n d

/-! ## The adjacency mask

Negative edge endpoints are wrapped once by the extent (the usual negative-index convention), the two endpoint
lists are laid side by side as index pairs, and a one is written over a zero array at every pair that lands inside it
(pairs outside are dropped; all updates are the same value, so their order is immaterial). -/

abbrev Se : Shape := ⟨1, ![65536]⟩
abbrev Se1 : Shape := ⟨2, ![65536, 1]⟩
abbrev Se2 : Shape := ⟨2, ![65536, 2]⟩
abbrev S0 : Shape := ⟨0, ![]⟩

/-- An endpoint list with its negative entries wrapped by 2048. -/
def wrapIdx (hs : S0.BroadcastsInDim Se (![] : Fin 0 → Fin Se.rank)) (x : IVec Se 32) : IVec Se 32 :=
  select (cmpi .slt x (broadcastInDim Se ![] hs (constantI S0 32 0#32)))
    (addi x (broadcastInDim Se ![] hs (constantI S0 32 2048#32))) x

/-- The zero–one adjacency array written from the two endpoint lists. -/
def edgeMask (D : ScatterDims Sm Se2 Se) (hcat : Shape.Concatenates [Se1, Se1] Se2 1)
    (hb : Se.BroadcastsInDim Se1 (![0] : Fin 1 → Fin Se1.rank)) (hs : S0.BroadcastsInDim Se (![] : Fin 0 → Fin Se.rank))
    (row col : IVec Se 32) : Sm.Idx → EReal :=
  Host.scatter D (fun _ b => b) (fun _ => (0 : EReal))
    (concatenate Se2 1 [⟨Se1, broadcastInDim Se1 ![0] hb (wrapIdx hs row)⟩, ⟨Se1, broadcastInDim Se1 ![0] hb (wrapIdx hs col)⟩] hcat)
    (fun _ => (1 : EReal))

end Cert.GatSpec

end
-- ==== Proof.KernelStages.lean ====
/-
  The host stages on the kernel's side, read at an index over the extended reals: the flattened features handed to the
  projection call are the features re-indexed (row 2048·b + n is row (b, n)); the weight reaches it as launched; the
  projected features handed to the attention call are the projection call's output re-indexed back, hence
  z[b,n,d] = Σ_f h[b,n,f] · W[f,d].
-/
import proofs.«142861_j43499428774616_2_alg».proof.Proof.FrameRunI
import proofs.«142861_j43499428774616_2_alg».proof.Proof.ProjValue
import proofs.«142861_j43499428774616_2_alg».proof.Proof.Spec
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The flattened features: row 2048·b + n, column f, is h[b,n,f]. -/
theorem v16_at (c : Dev nD) (b : Fin 16) (n : Fin 2048) (f : Fin 128) :
    (Va1 m ρ c main_v16 : S32768x128.Idx → EReal) (ix2 (⟨2048 * b.val + n.val, by omega⟩ : Fin 32768) f)
      = (m ((c : Thread nD τ).loc main_arg0) : S16x2048x128.Idx → EReal) (ix3 b n f) := by
  have e : (Va1 m ρ c main_v16 : S32768x128.Idx → EReal)
      = shapeCast S32768x128 (m ((c : Thread nD τ).loc main_arg0)) shapeCasts_S16x2048x128_S32768x128 := by
    show StableHlo.after hostOps0 (fun b => m (c, b)) (Proc.devRef .tc main_v16) = _
    after_results; rfl
  rw [e]
  have h3 : (S16x2048x128.rowMajor (ix3 b n f)).val = (b.val * 2048 + n.val) * 128 + f.val := Shape.rowMajor_val_three (ix3 b n f)
  have h2 : (S32768x128.rowMajor (ix2 (⟨2048 * b.val + n.val, by omega⟩ : Fin 32768) f)).val = (2048 * b.val + n.val) * 128 + f.val :=
    Shape.rowMajor_val_two _
  exact shapeCast_apply _ _ _ _ (h3.trans (by rw [h2]; omega))

/-- The weight reaches the projection call as launched. -/
theorem arg1_at (c : Dev nD) : Va1 m ρ c main_arg1 = m ((c : Thread nD τ).loc main_arg1) :=
  (StableHlo.after_of_writes_sub hostOps0 _ hostOps0_writes (by decide)).trans rfl

/-- The projected features handed to the attention call: z[b,n,d] = Σ_f h[b,n,f] · W[f,d]. -/
theorem v18_at
    (hpay : ∀ (v0 : Vec Ideal S4096x128 .f32) (v3 : Vec Ideal S128x128 .f32) (r : Fin 4096) (d : Fin 128),
      k0_pay1 (F := Ideal) v0 v3 (ix2 r d) = ∑ f : Fin 128, v0 (ix2 r f) * v3 (ix2 f d))
    (c : Dev nD) (b : Fin 16) (n : Fin 2048) (d : Fin 128) :
    (Va3 m ρ c main_v18 : S16x2048x128.Idx → EReal) (ix3 b n d)
      = Cert.GatSpec.proj (m ((c : Thread nD τ).loc main_arg0)) (m ((c : Thread nD τ).loc main_arg1)) b n d := by
  have e : (Va3 m ρ c main_v18 : S16x2048x128.Idx → EReal)
      = shapeCast S16x2048x128 (Wa2 m ρ c (Proc.devRef .tc main_v17)) shapeCasts_S32768x128_S16x2048x128 := by
    show StableHlo.after hostOps1 (Wa2 m ρ c) (Proc.devRef .tc main_v18) = _
    after_results; rfl
  rw [e]
  have h3 : (S16x2048x128.rowMajor (ix3 b n d)).val = (b.val * 2048 + n.val) * 128 + d.val := Shape.rowMajor_val_three (ix3 b n d)
  have h2 : (S32768x128.rowMajor (ix2 (⟨2048 * b.val + n.val, by omega⟩ : Fin 32768) d)).val = (2048 * b.val + n.val) * 128 + d.val :=
    Shape.rowMajor_val_two _
  refine (shapeCast_apply _ _ (ix3 b n d) (ix2 (⟨2048 * b.val + n.val, by omega⟩ : Fin 32768) d) (h2.trans (by rw [h3]; omega))).trans ?_
  rw [show Wa2 m ρ c (Proc.devRef .tc main_v17) = (dat0 (Va1 m ρ) c).arrAt 2 cfg0.N from Wa2_arr m ρ c 2,
    final0 (Va1 m ρ) hpay c]
  let A : S32768x128.Idx → EReal := Va1 m ρ c main_v16
  let B : S128x128.Idx → EReal := Va1 m ρ c main_arg1
  let H : S16x2048x128.Idx → EReal := m ((c : Thread nD τ).loc main_arg0)
  let Wt : S128x128.Idx → EReal := m ((c : Thread nD τ).loc main_arg1)
  show (∑ f : Fin 128, A (ix2 (⟨2048 * b.val + n.val, by omega⟩ : Fin 32768) f) * B (ix2 f d)) = ∑ f : Fin 128, H (ix3 b n f) * Wt (ix2 f d)
  have hB : B = Wt := arg1_at m ρ c
  refine Finset.sum_congr rfl fun f _ => ?_
  rw [hB]
  exact congrArg (· * Wt (ix2 f d)) (v16_at m ρ c b n f)

end Cert.KernelIdeal.HandV

end
-- ==== Proof.KernelMask.lean ====
/-
  The adjacency mask on the kernel's side: the host builds it before the first call — a scatter of ones into a zero
  array over the index pairs made from the two endpoint lists, negative endpoints wrapped by 2048 — and neither call nor
  the reshape between them writes it, so the attention call finds exactly the specification's mask (written there in a
  16-bit float format, whose zero and one denote 0 and 1).
-/
import proofs.«142861_j43499428774616_2_alg».proof.Proof.FrameRunI
import proofs.«142861_j43499428774616_2_alg».proof.Proof.Spec
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The 16-bit patterns of zero and one denote 0 and 1. -/
theorem ofBits_zero_bf16' : Ideal.ofBits .bf16 0x0000#16 = 0 := by simp [Ideal.ofBits, Ideal.ieee]
theorem ofBits_one_bf16' : Ideal.ofBits .bf16 0x3F80#16 = 1 := by
  rw [show (1 : EReal) = ((1 : ℝ) : EReal) by norm_cast]
  simp [Ideal.ofBits, Ideal.ieee, -EReal.coe_mul]; norm_num

theorem zeros_eq : (broadcastInDim S2048x2048 ![] bcast_S_S2048x2048 (constant (F := Ideal) S_ .bf16 0x0000#16) : S2048x2048.Idx → EReal)
    = fun _ => (0 : EReal) := by
  funext j
  rw [broadcastInDim_scalar_apply]
  exact ofBits_zero_bf16'
theorem ones_eq : (broadcastInDim S65536 ![] bcast_S_S65536 (constant (F := Ideal) S_ .bf16 0x3F80#16) : S65536.Idx → EReal)
    = fun _ => (1 : EReal) := by
  funext j
  rw [broadcastInDim_scalar_apply]
  exact ofBits_one_bf16'

set_option maxHeartbeats 4000000 in
/-- The mask as the first host stretch leaves it. -/
theorem v15_first (c : Dev nD) :
    (Va1 m ρ c main_v15 : S2048x2048.Idx → EReal)
      = Cert.GatSpec.edgeMask scatter_S2048x2048_S65536x2_S65536_n_01_01_1 concatenates_S65536x1_S65536x1_S65536x2_d1
          bcast_S65536_S65536x1_0 bcast_S_S65536 (m ((c : Thread nD τ).loc main_arg2)) (m ((c : Thread nD τ).loc main_arg3)) := by
  have e : (Va1 m ρ c main_v15 : S2048x2048.Idx → EReal)
      = Host.scatter scatter_S2048x2048_S65536x2_S65536_n_01_01_1 (fun _ b => b)
          (broadcastInDim S2048x2048 ![] bcast_S_S2048x2048 (constant (F := Ideal) S_ .bf16 0x0000#16))
          (concatenate S65536x2 1
            [⟨S65536x1, broadcastInDim S65536x1 ![0] bcast_S65536_S65536x1_0
                (select (cmpi .slt (m ((c : Thread nD τ).loc main_arg2)) (broadcastInDim S65536 ![] bcast_S_S65536 (constantI S_ 32 0#32)))
                  (addi (m ((c : Thread nD τ).loc main_arg2)) (broadcastInDim S65536 ![] bcast_S_S65536 (constantI S_ 32 2048#32)))
                  (m ((c : Thread nD τ).loc main_arg2)))⟩,
             ⟨S65536x1, broadcastInDim S65536x1 ![0] bcast_S65536_S65536x1_0
                (select (cmpi .slt (m ((c : Thread nD τ).loc main_arg3)) (broadcastInDim S65536 ![] bcast_S_S65536 (constantI S_ 32 0#32)))
                  (addi (m ((c : Thread nD τ).loc main_arg3)) (broadcastInDim S65536 ![] bcast_S_S65536 (constantI S_ 32 2048#32)))
                  (m ((c : Thread nD τ).loc main_arg3)))⟩]
            concatenates_S65536x1_S65536x1_S65536x2_d1)
          (broadcastInDim S65536 ![] bcast_S_S65536 (constant (F := Ideal) S_ .bf16 0x3F80#16)) := by
    show StableHlo.after hostOps0 (fun b => m (c, b)) (Proc.devRef .tc main_v15) = _
    after_results_simp
    rfl
  rw [e, zeros_eq, ones_eq]
  unfold Cert.GatSpec.edgeMask Cert.GatSpec.wrapIdx
  rfl

/-- The attention call finds the mask as the first host stretch left it. -/
theorem v15_at (c : Dev nD) :
    (Va3 m ρ c main_v15 : S2048x2048.Idx → EReal)
      = Cert.GatSpec.edgeMask scatter_S2048x2048_S65536x2_S65536_n_01_01_1 concatenates_S65536x1_S65536x1_S65536x2_d1
          bcast_S65536_S65536x1_0 bcast_S_S65536 (m ((c : Thread nD τ).loc main_arg2)) (m ((c : Thread nD τ).loc main_arg3)) :=
  ((StableHlo.after_of_writes_sub hostOps1 _ hostOps1_writes (by decide)).trans
    (Wa2_of_ne m ρ c main_v15 (by decide))).trans (v15_first m ρ c)

end Cert.KernelIdeal.HandV

end
-- ==== Proof.SpecRow.lean ====
/-
  One query row of the attention layer, as a function of that row's projected features `zq`, the batch's projected
  features `zk` (all 2048 key rows) and the query's row of the adjacency mask: the scores against every key, the leaky
  rectifier, the fill where the edge is absent or the score vanishes, the unnormalised softmax weights against the row
  maximum, the weighted sum of the keys' features divided by the weights' sum. `outK` of the specification is this
  function at the query's own data, by unfolding.
-/
import proofs.«142861_j43499428774616_2_alg».proof.Proof.Spec

noncomputable section

namespace Cert.GatSpec

open Idealize.ShloMosaic Idealize.ShloMosaic.ValueIdx

variable (zq : Fin 128 → EReal) (zk : Fin 2048 → Fin 128 → EReal) (mrow : Fin 2048 → EReal)

/-- The query's score against key `n`. -/
def rowScore (n : Fin 2048) : EReal := ∑ d : Fin 128, zq d * zk n d

/-- Its masked logit: the rectified score where the edge is present and the score nonzero, else the fill. -/
def rowLogit (n : Fin 2048) : EReal :=
  Scalar.select (IntOp.andi (Ideal.cmp .one (mrow n) 0) (Ideal.cmp .one (rowScore zq zk n) 0)) (leaky (rowScore zq zk n)) fill

/-- Its unnormalised softmax weight. -/
def rowWeight (n : Fin 2048) : EReal := Ideal.exp (rowLogit zq zk mrow n - rowMax (rowLogit zq zk mrow))

/-- The query's output feature `d`: aggregate, then normalise. -/
def attn (d : Fin 128) : EReal :=
  Ideal.div (∑ n : Fin 2048, rowWeight zq zk mrow n * zk n d) (∑ n : Fin 2048, rowWeight zq zk mrow n)

/-- The specification's kernel-side arrangement is the row function at the query's own data. -/
theorem outK_eq_attn (h : Sh.Idx → EReal) (W : Sw.Idx → EReal) (mk : Sm.Idx → EReal) (b : Fin 16) (q : Fin 2048) (d : Fin 128) :
    outK h W mk b q d = attn (proj h W b q) (proj h W b) (fun n => mk (ix2 q n)) d := rfl

end Cert.GatSpec

end
-- ==== Proof.GatValue.lean ====
/-
  What the attention call leaves in its output array, over the extended reals: row (b, q) of the result is the
  attention of query row q of batch b of the projected features against that batch's 2048 key rows under row q of
  the adjacency mask. Grid point (b, qi) writes query rows 512·qi … 512·qi+511 of batch b; the 64 blocks tile the
  array, so it ends holding the attention everywhere.
-/
import proofs.«142861_j43499428774616_2_alg».proof.Proof.GatRegionI
import proofs.«142861_j43499428774616_2_alg».proof.Proof.SpecRow
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- The attention output as a function of the projected features z and the adjacency mask. -/
def Gatt (z : S16x2048x128.Idx → EReal) (mk : S2048x2048.Idx → EReal) : S16x2048x128.Idx → EReal :=
  fun i => Cert.GatSpec.attn (fun d' => z (ix3 (⟨(i 0).val, (i 0).isLt⟩ : Fin 16) (⟨(i 1).val, (i 1).isLt⟩ : Fin 2048) d'))
    (fun n d' => z (ix3 (⟨(i 0).val, (i 0).isLt⟩ : Fin 16) n d')) (fun n => mk (ix2 (⟨(i 1).val, (i 1).isLt⟩ : Fin 2048) n)) (⟨(i 2).val, (i 2).isLt⟩ : Fin 128)

/-- The printed index maps and the mask's row offset, decided over the grid: the query's and the output's blocks move
    together over (batch, row block); the keys' block follows the batch only; the mask's block stays; the body reads
    the mask from the row the output's block starts at. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (2 : Fin 3) = 0 ∧ win1_3.index t (0 : Fin 3) ≤ 15 ∧ win1_3.index t (1 : Fin 3) ≤ 3
    ∧ k1_off1 (grid1.coords t) (0 : Fin 2) = win1_3.index t (1 : Fin 3) * 512 ∧ k1_off1 (grid1.coords t) (1 : Fin 2) = 0 :=
  (by decide +kernel : ∀ t : Fin grid1.N, _)

/-- Every (batch, row block) is some point's. -/
theorem idx_onto1 : ∀ (b' : Fin 16) (q' : Fin 4), ∃ t : Fin cfg1.N, win1_3.index t = ![b'.val, q'.val, 0] :=
  (by decide +kernel : ∀ (b' : Fin 16) (q' : Fin 4), ∃ t : Fin grid1.N, win1_3.index t = ![b'.val, q'.val, 0])

/-- What point `t` writes back is its block of the attention of the arrays as the region finds them. -/
theorem flushed1_eq
    (hpay : ∀ (v3 : Vec Ideal S512x2048 .bf16) (v5 : Vec Ideal S1x512x128 .f32) (v8 : Vec Ideal S1x2048x128 .f32) (r : Fin 512) (d : Fin 128),
      k1_pay1 (F := Ideal) v3 v5 v8 (ix3 (0 : Fin 1) r d)
        = Cert.GatSpec.attn (fun d' => v5 (ix3 (0 : Fin 1) r d')) (fun n d' => v8 (ix3 (0 : Fin 1) n d')) (fun n => v3 (ix2 r n)) d)
    (c : Dev nD) (t : Fin cfg1.N) :
    (dat1 V c).flushed 3 t = ((cfg1.win 3).blk t).view.read (Elt Ideal) (Gatt (V c main_v18) (V c main_v15)) := by
  show (cfg1.win 3).cut (grid1.coords t) ((dat1 V c).after 3 t) = _
  rw [after1_3]
  unfold out1_3
  rw [View.canon_unit_zero hz3]
  simp only [View.ld_unit_zero (S := S1x512x128) hz3, View.ld_unit_zero (S := S1x2048x128) hz3]
  obtain ⟨e00, e01, e02, e10, e11, e12, e20, e21, e32, b30, b31, o0, o1⟩ := idx_facts1 t
  funext j
  obtain ⟨z, r, d, rfl⟩ : ∃ (z : Fin 1) (r : Fin 512) (d : Fin 128), j = ix3 z r d := ⟨j 0, j 1, j 2, eq_ix3 j⟩
  obtain rfl : z = 0 := Subsingleton.elim _ _
  refine (hpay _ _ _ r d).trans ?_
  let A : S16x2048x128.Idx → EReal := V c main_v18
  let M : S2048x2048.Idx → EReal := V c main_v15
  show Cert.GatSpec.attn (fun d' => A (((cfg1.win 0).blk t).view.emb (ix3 (0 : Fin 1) r d')))
      (fun n d' => A (((cfg1.win 1).blk t).view.emb (ix3 (0 : Fin 1) n d')))
      (fun n => M (((cfg1.win 2).blk t).view.emb ((r1_m (grid1.coords t)).emb (ix2 r n)))) d
    = Gatt A M (((cfg1.win 3).blk t).view.emb (ix3 (0 : Fin 1) r d))
  unfold Gatt
  have hq : ∀ d' : Fin 128, ((cfg1.win 0).blk t).view.emb (ix3 (0 : Fin 1) r d')
      = ix3 (⟨((((cfg1.win 3).blk t).view.emb (ix3 (0 : Fin 1) r d)) 0).val, ((((cfg1.win 3).blk t).view.emb (ix3 (0 : Fin 1) r d)) 0).isLt⟩ : Fin 16)
          (⟨((((cfg1.win 3).blk t).view.emb (ix3 (0 : Fin 1) r d)) 1).val, ((((cfg1.win 3).blk t).view.emb (ix3 (0 : Fin 1) r d)) 1).isLt⟩ : Fin 2048) d' := by
    intro d'
    funext a; apply Fin.ext
    match a with
    | ⟨0, _⟩ => show win1_0.index t (0 : Fin 3) * 1 + 1 * (0 : Fin 1).val = win1_3.index t (0 : Fin 3) * 1 + 1 * (0 : Fin 1).val; omega
    | ⟨1, _⟩ => show win1_0.index t (1 : Fin 3) * 512 + 1 * r.val = win1_3.index t (1 : Fin 3) * 512 + 1 * r.val; omega
    | ⟨2, _⟩ => show win1_0.index t (2 : Fin 3) * 128 + 1 * d'.val = d'.val; omega
  have hk : ∀ (n : Fin 2048) (d' : Fin 128), ((cfg1.win 1).blk t).view.emb (ix3 (0 : Fin 1) n d')
      = ix3 (⟨((((cfg1.win 3).blk t).view.emb (ix3 (0 : Fin 1) r d)) 0).val, ((((cfg1.win 3).blk t).view.emb (ix3 (0 : Fin 1) r d)) 0).isLt⟩ : Fin 16) n d' := by
    intro n d'
    funext a; apply Fin.ext
    match a with
    | ⟨0, _⟩ => show win1_1.index t (0 : Fin 3) * 1 + 1 * (0 : Fin 1).val = win1_3.index t (0 : Fin 3) * 1 + 1 * (0 : Fin 1).val; omega
    | ⟨1, _⟩ => show win1_1.index t (1 : Fin 3) * 2048 + 1 * n.val = n.val; omega
    | ⟨2, _⟩ => show win1_1.index t (2 : Fin 3) * 128 + 1 * d'.val = d'.val; omega
  have hm : ∀ n : Fin 2048, ((cfg1.win 2).blk t).view.emb ((r1_m (grid1.coords t)).emb (ix2 r n))
      = ix2 (⟨((((cfg1.win 3).blk t).view.emb (ix3 (0 : Fin 1) r d)) 1).val, ((((cfg1.win 3).blk t).view.emb (ix3 (0 : Fin 1) r d)) 1).isLt⟩ : Fin 2048) n := by
    intro n
    funext a; apply Fin.ext
    match a with
    | ⟨0, _⟩ => show win1_2.index t (0 : Fin 2) * 2048 + 1 * (k1_off1 (grid1.coords t) (0 : Fin 2) + 1 * r.val) = win1_3.index t (1 : Fin 3) * 512 + 1 * r.val; omega
    | ⟨1, _⟩ => show win1_2.index t (1 : Fin 2) * 2048 + 1 * (k1_off1 (grid1.coords t) (1 : Fin 2) + 1 * n.val) = n.val; omega
  have hd : d = (⟨((((cfg1.win 3).blk t).view.emb (ix3 (0 : Fin 1) r d)) 2).val, ((((cfg1.win 3).blk t).view.emb (ix3 (0 : Fin 1) r d)) 2).isLt⟩ : Fin 128) :=
    Fin.ext (show d.val = win1_3.index t (2 : Fin 3) * 128 + 1 * d.val by omega)
  exact congr (congr (congr (congrArg Cert.GatSpec.attn (funext fun d' => congrArg A (hq d')))
    (funext fun n => funext fun d' => congrArg A (hk n d'))) (funext fun n => congrArg M (hm n))) hd

/-- An index of the array is in point `t`'s block iff each coordinate is in the block's range on its axis. -/
theorem mem_blk1 (t : Fin cfg1.N) (i : S16x2048x128.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v19).slice (win1_3.rect t)).set ↔ _
  rw [View.set_slice_whole, Rect.mem_set_unit]
  exact Iff.rfl

/-- The blocks tile the array: row (b, q) is in the block of the point at (b, q / 512). -/
theorem cover1 (i : S16x2048x128.Idx) : ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 128 := (i 2).isLt
  obtain ⟨t, ht⟩ := idx_onto1 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- The output array after the attention call: the attention of the arrays as the region finds them. -/
theorem final1
    (hpay : ∀ (v3 : Vec Ideal S512x2048 .bf16) (v5 : Vec Ideal S1x512x128 .f32) (v8 : Vec Ideal S1x2048x128 .f32) (r : Fin 512) (d : Fin 128),
      k1_pay1 (F := Ideal) v3 v5 v8 (ix3 (0 : Fin 1) r d)
        = Cert.GatSpec.attn (fun d' => v5 (ix3 (0 : Fin 1) r d')) (fun n d' => v8 (ix3 (0 : Fin 1) n d')) (fun n => v3 (ix2 r n)) d)
    (c : Dev nD) : (dat1 V c).arrAt 3 cfg1.N = Gatt (V c main_v18) (V c main_v15) :=
  (dat1 V c).arrAt_eq_of_cover 3 _ (fun t _ => flushed1_eq V hpay c t) cover1

end Cert.KernelIdeal.HandV

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.Payloads.lean ====
/-
  The two kernels' stored values read at an index, over the extended reals.

  * The projection kernel stores, at (r, d), the sum over f of x[r, f] · W[f, d]: rounding to the narrow format is the
    identity on extended reals, the accumulator is the zero pattern, and the contraction's index is its one coordinate.

  * The attention kernel stores, at (0, r, d), one query row of the attention: the scores of row r against all keys
    (a contraction over the feature axis of both operands), the leaky rectifier, the fill where the mask entry or the
    score is zero, the lane maximum (a fold of max from the pattern of −∞, which denotes the lattice's bottom) kept as
    a column and repeated along the row, the exponential of the difference, the aggregate of the keys' features by
    these weights, and the division by the weights' lane sum kept as a column.  Each stage is named and read at an
    index by one lemma; the stored value is their composition by definitional unfolding of the generated payload.
-/
import proofs.«142861_j43499428774616_2_alg».proof.Proof.Gen.KernelIdeal.Skeleton
import proofs.«142861_j43499428774616_2_alg».proof.Proof.SpecRow
import proofs.«142861_j43499428774616_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.GatPay

open Cert.KernelIdeal Cert.KernelIdeal.Gen Idealize.ShloMosaic Idealize.ShloMosaic.ValueIdx

variable [Cert.KernelIdeal.Facts]

/-! ## The three contractions -/

/-! ### The contraction `dot_S4096x128_S128x128_S4096x128_1_0_0_1_n_n` read at an index -/

theorem lhsP_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsP_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsP_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl
theorem rhsP_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q

/-- The product into a zero accumulator, at `(r, c)`: the sum over the contracted coordinate. -/
theorem matmulP_apply {φ₁ φ₂ : FTy} (a : FVec Ideal S4096x128 φ₁) (b : FVec Ideal S128x128 φ₂) (r : Fin 4096) (c : Fin 128) :
    matmul dot_S4096x128_S128x128_S4096x128_1_0_0_1_n_n none a b (constant (F := Ideal) S4096x128 .f32 0x00000000#32) (ix2 r c)
      = ∑ k : Fin 128, a (ix2 r k) * b (ix2 k c) := by
  refine (Ideal.matmul_constant_zero_apply dot_S4096x128_S128x128_S4096x128_1_0_0_1_n_n none a b (ix2 r c)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r c) ((contrEquiv1 dot_S4096x128_S128x128_S4096x128_1_0_0_1_n_n 128 rfl rfl).symm k) = ix2 r k := funext fun x => Fin.ext (by
    match x with
    | ⟨0, _⟩ => exact lhsP_0 _ _
    | ⟨1, _⟩ => exact (lhsP_1 _ _).trans hk)
  have er : dot_S4096x128_S128x128_S4096x128_1_0_0_1_n_n.rhsIdx (ix2 r c) ((contrEquiv1 dot_S4096x128_S128x128_S4096x128_1_0_0_1_n_n 128 rfl rfl).symm k) = ix2 k c := funext fun x => Fin.ext (by
    match x with
    | ⟨1, _⟩ => exact rhsP_1 _ _
    | ⟨0, _⟩ => exact (rhsP_0 _ _).trans hk)
  rw [el, er]

/-! ### The contraction `dot_S512x128_S2048x128_S512x2048_1_1_0_0_n_n` read at an index -/

theorem lhsS_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhsS_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhsS_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhsS_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The product into a zero accumulator, at `(r, c)`: the sum over the contracted coordinate. -/
theorem matmulS_apply {φ₁ φ₂ : FTy} (a : FVec Ideal S512x128 φ₁) (b : FVec Ideal S2048x128 φ₂) (r : Fin 512) (c : Fin 2048) :
    matmul dot_S512x128_S2048x128_S512x2048_1_1_0_0_n_n none a b (constant (F := Ideal) S512x2048 .f32 0x00000000#32) (ix2 r c)
      = ∑ k : Fin 128, a (ix2 r k) * b (ix2 c k) := by
  refine (Ideal.matmul_constant_zero_apply dot_S512x128_S2048x128_S512x2048_1_1_0_0_n_n none a b (ix2 r c)).trans ?_
  rw [← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 r c) ((contrEquiv1 dot_S512x128_S2048x128_S512x2048_1_1_0_0_n_n 128 rfl rfl).symm k) = ix2 r k := funext fun x => Fin.ext (by
    match x with
    | ⟨0, _⟩ => exact lhsS_0 _ _
    | ⟨1, _⟩ => exact (lhsS_1 _ _).trans hk)
  have er : dot_S512x128_S2048x128_S512x2048_1_1_0_0_n_n.rhsIdx (ix2 r c) ((contrEquiv1 dot_S512x128_S2048x128_S512x2048_1_1_0_0_n_n 128 rfl rfl).symm k) = ix2 c k := funext fun x => Fin.ext (by
    match x with
    | ⟨0, _⟩ => exact rhsS_0 _ _
    | ⟨1, _⟩ => exact (rhsS_1 _ _).trans hk)
  rw [el, er]

/-! ### The contraction `dot_S512x2048_S2048x128_S512x128_1_0_0_1_n_n` read at an index -/

theorem lhsA_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhsA_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhsA_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl
theorem rhsA_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q

/-- The product into a zero accumulator, at `(r, c)`: the sum over the contracted coordinate. -/
theorem matmulA_apply {φ₁ φ₂ : FTy} (a : FVec Ideal S512x2048 φ₁) (b : FVec Ideal S2048x128 φ₂) (r : Fin 512) (c : Fin 128) :
    matmul dot_S512x2048_S2048x128_S512x128_1_0_0_1_n_n none a b (constant (F := Ideal) S512x128 .f32 0x00000000#32) (ix2 r c)
      = ∑ k : Fin 2048, a (ix2 r k) * b (ix2 k c) := by
  refine (Ideal.matmul_constant_zero_apply dot_S512x2048_S2048x128_S512x128_1_0_0_1_n_n none a b (ix2 r c)).trans ?_
  rw [← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r c) ((contrEquiv1 dot_S512x2048_S2048x128_S512x128_1_0_0_1_n_n 2048 rfl rfl).symm k) = ix2 r k := funext fun x => Fin.ext (by
    match x with
    | ⟨0, _⟩ => exact lhsA_0 _ _
    | ⟨1, _⟩ => exact (lhsA_1 _ _).trans hk)
  have er : dot_S512x2048_S2048x128_S512x128_1_0_0_1_n_n.rhsIdx (ix2 r c) ((contrEquiv1 dot_S512x2048_S2048x128_S512x128_1_0_0_1_n_n 2048 rfl rfl).symm k) = ix2 k c := funext fun x => Fin.ext (by
    match x with
    | ⟨1, _⟩ => exact rhsA_1 _ _
    | ⟨0, _⟩ => exact (rhsA_0 _ _).trans hk)
  rw [el, er]

/-! ## The projection kernel's stored value -/

theorem k0_pay1_apply (v0 : Vec Ideal S4096x128 .f32) (v3 : Vec Ideal S128x128 .f32) (r : Fin 4096) (d : Fin 128) :
    k0_pay1 (F := Ideal) v0 v3 (ix2 r d) = ∑ f : Fin 128, v0 (ix2 r f) * v3 (ix2 f d) := by
  unfold k0_pay1
  refine (matmulP_apply _ _ r d).trans ?_
  refine Finset.sum_congr rfl fun f _ => ?_
  rw [truncf_apply, truncf_apply, shapeCast_self]

/-! ## Constants, the lane reductions and the keepdims column -/

theorem ofBits_neg_inf : Ideal.ofBits .f32 0xFF800000#32 = ⊥ := by simp [Ideal.ofBits, Ideal.ieee]
theorem ofBits_zero_bf16 : Ideal.ofBits .bf16 0x0000#16 = 0 := by simp [Ideal.ofBits, Ideal.ieee]

/-- The source index over row `r` with lane `n` inserted is `(r, n)`. -/
theorem lift_row (r : Fin 512) (n : Fin 2048) : reduces_S512x2048_S512.lift (ix1 r) n = ix2 r n :=
  funext fun c => Fin.ext (by
    match c with
    | ⟨0, _⟩ => rfl
    | ⟨1, _⟩ => rfl)

/-- The lane maximum of row `r`, from the pattern of −∞, is the row's maximum from the lattice's bottom. -/
theorem rowMax_apply (x : FVec Ideal S512x2048 .f32) (r : Fin 512) :
    multiReduction (F := Ideal) .maximumf [1] S512 x 0xFF800000#32 reduces_S512x2048_S512 (.inl rfl) rfl (ix1 r)
      = Cert.GatSpec.rowMax fun n => x (ix2 r n) := by
  refine (Ideal.multiReduction_maximumf_single x 0xFF800000#32 reduces_S512x2048_S512 (.inl rfl) rfl (ix1 r)).trans ?_
  unfold Cert.GatSpec.rowMax
  exact congrArg₂ (fun (b : EReal) (f : Fin 2048 → EReal) => (Finset.univ : Finset (Fin 2048)).fold max b f) ofBits_neg_inf
    (funext fun n => congrArg x (lift_row r n))

/-- The lane sum of row `r`. -/
theorem rowSum_apply (x : FVec Ideal S512x2048 .f32) (r : Fin 512) :
    multiReduction (F := Ideal) .add [1] S512 x 0x00000000#32 reduces_S512x2048_S512 (.inl rfl) rfl (ix1 r)
      = ∑ n : Fin 2048, x (ix2 r n) := by
  refine (Ideal.multiReduction_add_single x 0x00000000#32 reduces_S512x2048_S512 (.inl rfl) rfl (ix1 r)).trans ?_
  exact Finset.sum_congr rfl fun n _ => congrArg x (lift_row r n)

/-- A per-row value kept as a column and repeated along the row reads, at `(r, c)`, the value of row `r`. -/
theorem column2048_apply (y : FVec Ideal S512 .f32) (r : Fin 512) (c : Fin 2048) :
    broadcastTo S512x2048 (shapeCast S512x1 y shapeCasts_S512_S512x1) broadcasts_S512x1_S512x2048 (ix2 r c) = y (ix1 r) :=
  (broadcastTo_a1_ab_apply _ broadcasts_S512x1_S512x2048 r c).trans (shapeCast_a_a1_apply y shapeCasts_S512_S512x1 r 0)
theorem column128_apply (y : FVec Ideal S512 .f32) (r : Fin 512) (c : Fin 128) :
    broadcastTo S512x128 (shapeCast S512x1 y shapeCasts_S512_S512x1) broadcasts_S512x1_S512x128 (ix2 r c) = y (ix1 r) :=
  (broadcastTo_a1_ab_apply _ broadcasts_S512x1_S512x128 r c).trans (shapeCast_a_a1_apply y shapeCasts_S512_S512x1 r 0)

/-- A bitwise and of one-bit vectors reads, at an index, the and of the bits. -/
theorem andi_apply {s : Shape} {w : Nat} (x y : IVec s w) (i : s.Idx) : andi x y i = IntOp.andi (x i) (y i) := rfl

/-! ## The attention kernel's stored value, in named stages -/

section Row
variable (v3 : Vec Ideal S512x2048 .bf16) (v5 : Vec Ideal S1x512x128 .f32) (v8 : Vec Ideal S1x2048x128 .f32)

/-- The keys' features as a matrix operand. -/
def keysV : FVec Ideal S2048x128 .bf16 :=
  truncf .bf16 (shapeCast S2048x128 v8 shapeCasts_S1x2048x128_S2048x128) bitsLt_bf16_f32

/-- The block's scores: queries against all keys. -/
def scoresV : FVec Ideal S512x2048 .f32 :=
  matmul dot_S512x128_S2048x128_S512x2048_1_1_0_0_n_n none
    (truncf .bf16 (shapeCast S512x128 v5 shapeCasts_S1x512x128_S512x128) bitsLt_bf16_f32) (keysV v8)
    (constant S512x2048 .f32 0x00000000#32)

/-- The masked logits. -/
def logitsV : FVec Ideal S512x2048 .f32 :=
  select
    (andi
      (cmpf .one (shapeCast S512x2048 v3 shapeCasts_S512x2048_S512x2048) (broadcast S512x2048 (Scalar.ofBits (F := Ideal) .bf16 0x0000#16)))
      (cmpf .one (scoresV v5 v8) (broadcast S512x2048 (Scalar.ofBits (F := Ideal) .f32 0x00000000#32))))
    (select (cmpf .ogt (scoresV v5 v8) (broadcast S512x2048 (Scalar.ofBits (F := Ideal) .f32 0x00000000#32))) (scoresV v5 v8)
      (mulf (broadcast S512x2048 (Scalar.ofBits (F := Ideal) .f32 0x3DCCCCCD#32)) (scoresV v5 v8)))
    (broadcast S512x2048 (Scalar.ofBits (F := Ideal) .f32 0xDA0E1BCA#32))

/-- The unnormalised softmax weights. -/
def weightsV : FVec Ideal S512x2048 .f32 :=
  exp (subf (logitsV v3 v5 v8)
    (broadcastTo S512x2048
      (shapeCast S512x1 (multiReduction (F := Ideal) .maximumf [1] S512 (logitsV v3 v5 v8) 0xFF800000#32 reduces_S512x2048_S512 (.inl rfl) rfl)
        shapeCasts_S512_S512x1)
      broadcasts_S512x1_S512x2048))

/-- The stored value is the aggregate of the keys' features by the weights, divided by the weights' row sums. -/
theorem k1_pay1_eq : k1_pay1 (F := Ideal) v3 v5 v8 =
    shapeCast S1x512x128
      (divf
        (matmul dot_S512x2048_S2048x128_S512x128_1_0_0_1_n_n none (truncf .bf16 (weightsV v3 v5 v8) bitsLt_bf16_f32) (keysV v8)
          (constant S512x128 .f32 0x00000000#32))
        (broadcastTo S512x128
          (shapeCast S512x1 (multiReduction (F := Ideal) .add [1] S512 (weightsV v3 v5 v8) 0x00000000#32 reduces_S512x2048_S512 (.inl rfl) rfl)
            shapeCasts_S512_S512x1)
          broadcasts_S512x1_S512x128))
      shapeCasts_S512x128_S1x512x128 := rfl

theorem keysV_apply (n : Fin 2048) (d : Fin 128) : keysV v8 (ix2 n d) = v8 (ix3 (0 : Fin 1) n d) :=
  shapeCast_1ab_ab_apply v8 shapeCasts_S1x2048x128_S2048x128 n d

theorem scoresV_apply (r : Fin 512) (n : Fin 2048) :
    scoresV v5 v8 (ix2 r n)
      = Cert.GatSpec.rowScore (fun d' => v5 (ix3 (0 : Fin 1) r d')) (fun n d' => v8 (ix3 (0 : Fin 1) n d')) n := by
  unfold scoresV Cert.GatSpec.rowScore
  refine (matmulS_apply _ _ r n).trans (Finset.sum_congr rfl fun d' _ => ?_)
  exact congrArg₂ (· * ·) (shapeCast_1ab_ab_apply v5 shapeCasts_S1x512x128_S512x128 r d') (keysV_apply v8 n d')

theorem logitsV_apply (r : Fin 512) (n : Fin 2048) :
    logitsV v3 v5 v8 (ix2 r n)
      = Cert.GatSpec.rowLogit (fun d' => v5 (ix3 (0 : Fin 1) r d')) (fun n d' => v8 (ix3 (0 : Fin 1) n d')) (fun n => v3 (ix2 r n)) n := by
  unfold logitsV Cert.GatSpec.rowLogit Cert.GatSpec.leaky Cert.GatSpec.slope Cert.GatSpec.fill
  rw [← scoresV_apply v5 v8 r n]
  rw [shapeCast_self]
  have h0 : FloatOps.ofBits (F := Ideal) .f32 0x00000000#32 = 0 := Ideal.ofBits_zero_f32
  have hb : FloatOps.ofBits (F := Ideal) .bf16 0x0000#16 = 0 := ofBits_zero_bf16
  simp only [select_apply, andi_apply, cmpf_apply, broadcast_apply, mulf_apply, Ideal.cmpf_def, h0, hb]
  rfl

theorem rowMaxV_apply (r : Fin 512) :
    multiReduction (F := Ideal) .maximumf [1] S512 (logitsV v3 v5 v8) 0xFF800000#32 reduces_S512x2048_S512 (.inl rfl) rfl (ix1 r)
      = Cert.GatSpec.rowMax (Cert.GatSpec.rowLogit (fun d' => v5 (ix3 (0 : Fin 1) r d')) (fun n d' => v8 (ix3 (0 : Fin 1) n d')) (fun n => v3 (ix2 r n))) :=
  (rowMax_apply _ r).trans (congrArg Cert.GatSpec.rowMax (funext fun n => logitsV_apply v3 v5 v8 r n))

theorem weightsV_apply (r : Fin 512) (n : Fin 2048) :
    weightsV v3 v5 v8 (ix2 r n)
      = Cert.GatSpec.rowWeight (fun d' => v5 (ix3 (0 : Fin 1) r d')) (fun n d' => v8 (ix3 (0 : Fin 1) n d')) (fun n => v3 (ix2 r n)) n := by
  unfold weightsV Cert.GatSpec.rowWeight
  show Ideal.exp (logitsV v3 v5 v8 (ix2 r n) - broadcastTo S512x2048 _ broadcasts_S512x1_S512x2048 (ix2 r n)) = _
  rw [column2048_apply, rowMaxV_apply, logitsV_apply]

end Row

theorem k1_pay1_apply (v3 : Vec Ideal S512x2048 .bf16) (v5 : Vec Ideal S1x512x128 .f32) (v8 : Vec Ideal S1x2048x128 .f32) (r : Fin 512) (d : Fin 128) :
    k1_pay1 (F := Ideal) v3 v5 v8 (ix3 (0 : Fin 1) r d)
      = Cert.GatSpec.attn (fun d' => v5 (ix3 (0 : Fin 1) r d')) (fun n d' => v8 (ix3 (0 : Fin 1) n d')) (fun n => v3 (ix2 r n)) d := by
  rw [k1_pay1_eq]
  refine (shapeCast_ab_1ab_apply _ shapeCasts_S512x128_S1x512x128 (0 : Fin 1) r d).trans ?_
  unfold Cert.GatSpec.attn
  refine congrArg₂ Ideal.div ?_ ?_
  · refine (matmulA_apply _ _ r d).trans (Finset.sum_congr rfl fun n _ => ?_)
    exact congrArg₂ (· * ·) (weightsV_apply v3 v5 v8 r n) (keysV_apply v8 n d)
  · refine (column128_apply _ r d).trans ((rowSum_apply _ r).trans (Finset.sum_congr rfl fun n _ => ?_))
    exact weightsV_apply v3 v5 v8 r n

end Cert.GatPay

end
-- ==== Proof.KernelValue.lean ====
/-
  The kernel's result, index by index: the attention call's output array is the row function of the projected features
  and the mask it finds (the call's closed form), the projected features are Σ_f h·W (the projection call's closed form
  through the two re-indexings), and the mask is the specification's; so entry (b, q, d) is `outK` of the arguments.
-/
import proofs.«142861_j43499428774616_2_alg».proof.Proof.KernelStages
import proofs.«142861_j43499428774616_2_alg».proof.Proof.KernelMask
import proofs.«142861_j43499428774616_2_alg».proof.Proof.GatValue
import proofs.«142861_j43499428774616_2_alg».proof.Proof.Payloads
import proofs.«142861_j43499428774616_2_alg».proof.Proof.SpecRow

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Entry (b, q, d) of the kernel's result is the specification's kernel-side arrangement of the arguments. -/
theorem kernel_value (c : Dev nD) (b : Fin 16) (q : Fin 2048) (d : Fin 128) :
    ((dat1 (Va3 m ρ) c).arrAt 3 cfg1.N : S16x2048x128.Idx → EReal) (ix3 b q d)
      = Cert.GatSpec.outK (m ((c : Thread nD τ).loc main_arg0)) (m ((c : Thread nD τ).loc main_arg1))
          (Cert.GatSpec.edgeMask scatter_S2048x2048_S65536x2_S65536_n_01_01_1 concatenates_S65536x1_S65536x1_S65536x2_d1
            bcast_S65536_S65536x1_0 bcast_S_S65536 (m ((c : Thread nD τ).loc main_arg2)) (m ((c : Thread nD τ).loc main_arg3)))
          b q d := by
  rw [final1 (Va3 m ρ) Cert.GatPay.k1_pay1_apply c, Cert.GatSpec.outK_eq_attn]
  let Z : S16x2048x128.Idx → EReal := Va3 m ρ c main_v18
  let M : S2048x2048.Idx → EReal := Va3 m ρ c main_v15
  show Cert.GatSpec.attn (fun d' => Z (ix3 b q d')) (fun n d' => Z (ix3 b n d')) (fun n => M (ix2 q n)) d = _
  have e1 : (fun d' => Z (ix3 b q d')) = Cert.GatSpec.proj (m ((c : Thread nD τ).loc main_arg0)) (m ((c : Thread nD τ).loc main_arg1)) b q :=
    funext fun d' => v18_at m ρ Cert.GatPay.k0_pay1_apply c b q d'
  have e2 : (fun n d' => Z (ix3 b n d')) = Cert.GatSpec.proj (m ((c : Thread nD τ).loc main_arg0)) (m ((c : Thread nD τ).loc main_arg1)) b :=
    funext fun n => funext fun d' => v18_at m ρ Cert.GatPay.k0_pay1_apply c b n d'
  have e3 : M = Cert.GatSpec.edgeMask scatter_S2048x2048_S65536x2_S65536_n_01_01_1 concatenates_S65536x1_S65536x1_S65536x2_d1
      bcast_S65536_S65536x1_0 bcast_S_S65536 (m ((c : Thread nD τ).loc main_arg2)) (m ((c : Thread nD τ).loc main_arg3)) := v15_at m ρ c
  rw [e1, e2, e3]

end Cert.KernelIdeal.HandV

end
-- ==== Proof.RefScore.lean ====
import proofs.«142861_j43499428774616_2_alg».proof.Proof.Gen.ReferenceIdeal.Read
import proofs.«142861_j43499428774616_2_alg».proof.Proof.Spec

noncomputable section

namespace Cert.GatRef

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.GatSpec

/-! ## The projection, the score and the rectifier, read at an index

The reference's first product contracts the feature axis of the node features with the weight's rows; its second
contracts the projected axis of two rows of the result; the rectifier is a select between the score and the
slope's multiple of it. Each is read at an index built from its coordinates. -/

variable (h : (⟨S16x2048x128, .f32⟩ : BufTy).Contents (Elt Ideal)) (W : (⟨S128x128, .f32⟩ : BufTy).Contents (Elt Ideal))

theorem lidx0 (b : Fin 16) (n : Fin 2048) (d f : Fin 128) : lidx_main_v0 (ix3 b n d) f = ix3 b n f := by
  funext a; match a with | ⟨0, _⟩ => rfl | ⟨1, _⟩ => rfl | ⟨2, _⟩ => rfl
theorem ridx0 (b : Fin 16) (n : Fin 2048) (d f : Fin 128) : ridx_main_v0 (ix3 b n d) f = ix2 f d := by
  funext a; match a with | ⟨0, _⟩ => rfl | ⟨1, _⟩ => rfl
theorem lidx1 (b : Fin 16) (q n : Fin 2048) (k : Fin 128) : lidx_main_v1 (ix3 b q n) k = ix3 b q k := by
  funext a; match a with | ⟨0, _⟩ => rfl | ⟨1, _⟩ => rfl | ⟨2, _⟩ => rfl
theorem ridx1 (b : Fin 16) (q n : Fin 2048) (k : Fin 128) : ridx_main_v1 (ix3 b q n) k = ix3 b n k := by
  funext a; match a with | ⟨0, _⟩ => rfl | ⟨1, _⟩ => rfl | ⟨2, _⟩ => rfl

/-- The first product at (b, n, d) is the projected feature. -/
theorem v0_at (b : Fin 16) (n : Fin 2048) (d : Fin 128) :
    val_main_v0 (F := Ideal) h W (ix3 b n d) = proj h W b n d := by
  rw [val_main_v0_apply]
  unfold proj
  refine Finset.sum_congr rfl fun f _ => ?_
  rw [lidx0, ridx0]

/-- The second product at (b, q, n) is the score of the pair of rows. -/
theorem v1_at (b : Fin 16) (q n : Fin 2048) :
    val_main_v1 (F := Ideal) h W (ix3 b q n) = score h W b q n := by
  rw [val_main_v1_apply]
  unfold score
  refine Finset.sum_congr rfl fun k _ => ?_
  rw [lidx1, ridx1, v0_at, v0_at]

/-- The rectified score at (b, q, n). -/
theorem v6_at (b : Fin 16) (q n : Fin 2048) :
    val_main_v6 (F := Ideal) h W (ix3 b q n) = leaky (score h W b q n) := by
  rw [val_main_v6_apply, val_main_v3_apply, val_main_v5_apply, val_main_v2_apply, val_main_v4_apply,
    val_main_cst_apply, val_main_cst_0_apply, v1_at, Ideal.cmpf_def, Ideal.ofBits_def, Ideal.ofBits_zero_f32,
    Ideal.mulf_def, Ideal.ofBits_def]
  rfl

end Cert.GatRef

end
-- ==== Proof.RefMask.lean ====
import proofs.«142861_j43499428774616_2_alg».proof.Proof.Gen.ReferenceIdeal.Read
import proofs.«142861_j43499428774616_2_alg».proof.Proof.Spec
import Idealize.ShloMosaic.Lib.IdealHost

noncomputable section

namespace Cert.GatRef

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.GatSpec

/-! ## The adjacency mask

The mask is a scatter of ones into an array of zeros at the index pairs laid side by side from the two wrapped
endpoint lists: stage by stage the same term as the specification's `edgeMask`, once the operand and the updates
are read as the constant functions zero and one. Its two broadcasts to the scores' shape read it at (q, n) for
every batch. -/

variable (x2 x3 : (⟨S65536, .i32⟩ : BufTy).Contents (Elt Ideal))

/-- The scatter's operand is the zero array. -/
theorem v7_eq : val_main_v7 (F := Ideal) = fun _ => (0 : EReal) := by
  funext i
  rw [val_main_v7_apply, val_main_cst_1_apply, Ideal.ofBits_def, Ideal.ofBits_zero_f32]

/-- The scatter's updates are all one. -/
theorem v21_eq : val_main_v21 (F := Ideal) = fun _ => (1 : EReal) := by
  funext i
  rw [val_main_v21_apply, val_main_cst_5_apply, Ideal.ofBits_def, Ideal.ofBits_one_f32]

/-- The scattered array is the specification's mask of the two endpoint lists. -/
theorem v22_eq [Cert.ReferenceIdeal.Facts] :
    val_main_v22 (F := Ideal) x2 x3
      = edgeMask scatter_S2048x2048_S65536x2_S65536_n_01_01_1 Facts₀.concatenates_S65536x1_S65536x1_S65536x2_d1
          Facts₀.bcast_S65536_S65536x1_0 Facts₀.bcast_S_S65536 x2 x3 := by
  unfold val_main_v22
  rw [v7_eq, v21_eq]
  unfold edgeMask wrapIdx val_main_v20 val_main_v18 val_main_v19 val_main_v12 val_main_v17 val_main_v9 val_main_v11
    val_main_v14 val_main_v16 val_main_v8 val_main_v10 val_main_v13 val_main_v15 val_main_c val_main_c_2 val_main_c_3 val_main_c_4
  rfl

theorem idx24 (b : Fin 16) (q n : Fin 2048) : idx_main_v24 (ix3 b q n) = ix3 (⟨0, Nat.one_pos⟩ : Fin 1) q n := by
  funext a; match a with | ⟨0, _⟩ => rfl | ⟨1, _⟩ => rfl | ⟨2, _⟩ => rfl
theorem idx23 (z : Fin 1) (q n : Fin 2048) : idx_main_v23 (ix3 z q n) = ix2 q n := by
  funext a; match a with | ⟨0, _⟩ => rfl | ⟨1, _⟩ => rfl

/-- The mask broadcast over the batch axis reads the mask at (q, n). -/
theorem v24_at (b : Fin 16) (q n : Fin 2048) :
    val_main_v24 (F := Ideal) x2 x3 (ix3 b q n) = val_main_v22 (F := Ideal) x2 x3 (ix2 q n) := by
  rw [val_main_v24_apply, idx24, val_main_v23_apply, idx23]

end Cert.GatRef

end
-- ==== Proof.RefLogit.lean ====
import proofs.«142861_j43499428774616_2_alg».proof.Proof.Gen.ReferenceIdeal.Read
import proofs.«142861_j43499428774616_2_alg».proof.Proof.Spec
import proofs.«142861_j43499428774616_2_alg».proof.Proof.RefScore
import proofs.«142861_j43499428774616_2_alg».proof.Proof.RefMask
import Idealize.ShloMosaic.Lib.IdealHost

noncomputable section

namespace Cert.GatRef

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.GatSpec

/-! ## The masked logit, its row maximum and the softmax weight

The masked score is the rectified score times the mask; a product that is exactly zero is replaced by the fill.
The row maximum is the reduce over the last axis from −∞ (a fold of `max` over that axis's coordinates, the
initial value the lattice's bottom); the maximum with a −∞ splat changes nothing; the weight is the exponential
of the logit less its row's maximum. -/

variable (h : (⟨S16x2048x128, .f32⟩ : BufTy).Contents (Elt Ideal)) (W : (⟨S128x128, .f32⟩ : BufTy).Contents (Elt Ideal))
variable (x2 x3 : (⟨S65536, .i32⟩ : BufTy).Contents (Elt Ideal))

/-- The f32 pattern of −∞ is the bottom of the extended reals. -/
theorem ofBits_neg_inf_f32 : Ideal.ofBits .f32 0xFF800000#32 = (⊥ : EReal) := by simp [Ideal.ofBits, Ideal.ieee]

/-- The masked score at (b, q, n). -/
theorem v25_at (b : Fin 16) (q n : Fin 2048) :
    val_main_v25 (F := Ideal) h W x2 x3 (ix3 b q n)
      = leaky (score h W b q n) * val_main_v22 (F := Ideal) x2 x3 (ix2 q n) := by
  rw [val_main_v25_apply, Ideal.mulf_def, v6_at, v24_at]

/-- The masked logit at (b, q, n). -/
theorem v28_at (b : Fin 16) (q n : Fin 2048) :
    val_main_v28 (F := Ideal) h W x2 x3 (ix3 b q n) = logitR h W (val_main_v22 (F := Ideal) x2 x3) b q n := by
  rw [val_main_v28_apply, val_main_v27_apply, val_main_v26_apply, val_main_cst_6_apply, val_main_call1_v1_apply,
    val_main_call1_v0_apply, val_main_cst_7_apply, v25_at, Ideal.cmpf_def]
  simp only [Ideal.ofBits_def, Ideal.ofBits_zero_f32]
  rfl

/-- The scores' shape with its last axis dropped. -/
theorem reduces_d2 : S16x2048x2048.Reduces [2] S16x2048 := by decide

/-- A reduced index (b, q) with the coordinate k put back on the last axis is (b, q, k). -/
theorem lift_ix3 (hr : S16x2048x2048.Reduces [2] S16x2048) (b : Fin 16) (q : Fin 2048) (k : Fin (S16x2048x2048.size 2)) :
    hr.lift (ix2 b q) k = ix3 b q (⟨k.val, k.isLt⟩ : Fin 2048) := by
  funext c; apply Fin.ext
  fin_cases c <;> rfl

/-- At the ideal instance a fold of the float maximum is the fold of the order's `max`. -/
theorem fold_maximumf_eq {ι : Type} (s : Finset ι) (init : EReal) (f : ι → EReal) :
    Finset.fold (FloatOps.maximumf (F := Ideal) (φ := .f32)) init f s = Finset.fold max init f s := rfl

/-- The host's reduce with a maximum body over the last axis, at (b, q): the fold of `max` from the initial value's
    element over the row. -/
theorem reduce_max_last (x : S16x2048x2048.Idx → EReal) (init : S_.Idx → EReal) (b : Fin 16) (q : Fin 2048) :
    Host.reduce (FloatOps.maximumf (F := Ideal) (φ := .f32)) x init reducesTo_S16x2048x2048_S16x2048_d2 h_S_ (ix2 b q)
      = (Finset.univ : Finset (Fin 2048)).fold max (init (Shape.Idx.first h_S_)) (fun k => x (ix3 b q k)) := by
  rw [Host.reduce_eq_fold_single (FloatOps.maximumf (F := Ideal) (φ := .f32)) x init reducesTo_S16x2048x2048_S16x2048_d2 reduces_d2 h_S_]
  have hf : (x ∘ reduces_d2.lift (ix2 b q)) = fun k : Fin 2048 => x (ix3 b q k) :=
    funext fun k => congrArg x (lift_ix3 reduces_d2 b q k)
  rw [hf]
  exact fold_maximumf_eq _ _ _

/-- The row maximum at (b, q): the fold of `max` from the bottom over the row's logits. -/
theorem v29_at (b : Fin 16) (q : Fin 2048) :
    val_main_v29 (F := Ideal) h W x2 x3 (ix2 b q) = rowMax (logitR h W (val_main_v22 (F := Ideal) x2 x3) b q) := by
  unfold val_main_v29
  refine (reduce_max_last _ _ b q).trans ?_
  rw [val_main_cst_8_apply, Ideal.ofBits_def, ofBits_neg_inf_f32]
  unfold rowMax
  exact congrArg (fun f => Finset.fold max (⊥ : EReal) f (Finset.univ : Finset (Fin 2048)))
    (funext fun k => v28_at h W x2 x3 b q k)

/-- The maximum with the −∞ splat is the row maximum still. -/
theorem v31_at (b : Fin 16) (q : Fin 2048) :
    val_main_v31 (F := Ideal) h W x2 x3 (ix2 b q) = rowMax (logitR h W (val_main_v22 (F := Ideal) x2 x3) b q) := by
  rw [val_main_v31_apply, val_main_v30_apply, val_main_cst_9_apply, v29_at, Ideal.maximumf_def, Ideal.ofBits_def,
    ofBits_neg_inf_f32, max_bot_left]

theorem idx33 (b : Fin 16) (q n : Fin 2048) : idx_main_v33 (ix3 b q n) = ix3 b q (⟨0, Nat.one_pos⟩ : Fin 1) := by
  funext a; match a with | ⟨0, _⟩ => rfl | ⟨1, _⟩ => rfl | ⟨2, _⟩ => rfl
theorem idx32 (b : Fin 16) (q : Fin 2048) (z : Fin 1) : idx_main_v32 (ix3 b q z) = ix2 b q := by
  funext a; match a with | ⟨0, _⟩ => rfl | ⟨1, _⟩ => rfl

/-- The row maximum broadcast back along the row. -/
theorem v33_at (b : Fin 16) (q n : Fin 2048) :
    val_main_v33 (F := Ideal) h W x2 x3 (ix3 b q n) = rowMax (logitR h W (val_main_v22 (F := Ideal) x2 x3) b q) := by
  rw [val_main_v33_apply, idx33, val_main_v32_apply, idx32, v31_at]

/-- The unnormalised softmax weight at (b, q, n). -/
theorem v35_at (b : Fin 16) (q n : Fin 2048) :
    val_main_v35 (F := Ideal) h W x2 x3 (ix3 b q n) = wR h W (val_main_v22 (F := Ideal) x2 x3) b q n := by
  rw [val_main_v35_apply, val_main_v34_apply, v28_at, v33_at, Ideal.subf_def, Ideal.hostUnary_exp_def]
  rfl

end Cert.GatRef

end
-- ==== Proof.RefValue.lean ====
import proofs.«142861_j43499428774616_2_alg».proof.Proof.Gen.ReferenceIdeal.Read
import proofs.«142861_j43499428774616_2_alg».proof.Proof.Spec
import proofs.«142861_j43499428774616_2_alg».proof.Proof.RefScore
import proofs.«142861_j43499428774616_2_alg».proof.Proof.RefMask
import proofs.«142861_j43499428774616_2_alg».proof.Proof.RefLogit

noncomputable section

namespace Cert.GatRef

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.GatSpec

/-! ## The normalised weights and the aggregation: the reference's value

The row sum is the host's sum from zero over the last axis; each weight is divided by its row's sum; the last
product contracts the neighbour axis of the normalised weights with the projected features. Read at (b, q, d)
the result is the specification's `outR` of the argument arrays and the mask of the two endpoint lists. -/

section Stages

variable (h : (⟨S16x2048x128, .f32⟩ : BufTy).Contents (Elt Ideal)) (W : (⟨S128x128, .f32⟩ : BufTy).Contents (Elt Ideal))
variable (x2 x3 : (⟨S65536, .i32⟩ : BufTy).Contents (Elt Ideal))

theorem idx36 (b : Fin 16) (q k : Fin 2048) : idx_main_v36 (ix2 b q) k = ix3 b q k := by
  funext a; match a with | ⟨0, _⟩ => rfl | ⟨1, _⟩ => rfl | ⟨2, _⟩ => rfl
theorem idx38 (b : Fin 16) (q n : Fin 2048) : idx_main_v38 (ix3 b q n) = ix3 b q (⟨0, Nat.one_pos⟩ : Fin 1) := by
  funext a; match a with | ⟨0, _⟩ => rfl | ⟨1, _⟩ => rfl | ⟨2, _⟩ => rfl
theorem idx37 (b : Fin 16) (q : Fin 2048) (z : Fin 1) : idx_main_v37 (ix3 b q z) = ix2 b q := by
  funext a; match a with | ⟨0, _⟩ => rfl | ⟨1, _⟩ => rfl
theorem lidx40 (b : Fin 16) (q : Fin 2048) (d : Fin 128) (n : Fin 2048) : lidx_main_v40 (ix3 b q d) n = ix3 b q n := by
  funext a; match a with | ⟨0, _⟩ => rfl | ⟨1, _⟩ => rfl | ⟨2, _⟩ => rfl
theorem ridx40 (b : Fin 16) (q : Fin 2048) (d : Fin 128) (n : Fin 2048) : ridx_main_v40 (ix3 b q d) n = ix3 b n d := by
  funext a; match a with | ⟨0, _⟩ => rfl | ⟨1, _⟩ => rfl | ⟨2, _⟩ => rfl

/-- The row sum of the weights at (b, q). -/
theorem v36_at (b : Fin 16) (q : Fin 2048) :
    val_main_v36 (F := Ideal) h W x2 x3 (ix2 b q) = ∑ n' : Fin 2048, wR h W (val_main_v22 (F := Ideal) x2 x3) b q n' := by
  rw [val_main_v36_apply, val_main_cst_10_apply, Ideal.ofBits_def, Ideal.ofBits_zero_f32, zero_add]
  refine Finset.sum_congr rfl fun k _ => ?_
  rw [idx36, v35_at]

/-- The row sum broadcast back along the row. -/
theorem v38_at (b : Fin 16) (q n : Fin 2048) :
    val_main_v38 (F := Ideal) h W x2 x3 (ix3 b q n) = ∑ n' : Fin 2048, wR h W (val_main_v22 (F := Ideal) x2 x3) b q n' := by
  rw [val_main_v38_apply, idx38, val_main_v37_apply, idx37, v36_at]

/-- The normalised weight at (b, q, n). -/
theorem v39_at (b : Fin 16) (q n : Fin 2048) :
    val_main_v39 (F := Ideal) h W x2 x3 (ix3 b q n)
      = Ideal.div (wR h W (val_main_v22 (F := Ideal) x2 x3) b q n) (∑ n' : Fin 2048, wR h W (val_main_v22 (F := Ideal) x2 x3) b q n') := by
  rw [val_main_v39_apply, Ideal.hostDivf_def, v35_at, v38_at]

/-- The aggregated features at (b, q, d). -/
theorem v40_at (b : Fin 16) (q : Fin 2048) (d : Fin 128) :
    val_main_v40 (F := Ideal) h W x2 x3 (ix3 b q d) = outR h W (val_main_v22 (F := Ideal) x2 x3) b q d := by
  rw [val_main_v40_apply]
  unfold outR
  refine Finset.sum_congr rfl fun n _ => ?_
  rw [lidx40, ridx40, v39_at, v0_at]

end Stages

variable [Cert.ReferenceIdeal.Facts]

open Cert.ReferenceIdeal in
/-- The reference's result at (b, q, d) is `outR` of the node features, the weight and the adjacency mask written
    from the two endpoint lists. -/
theorem ref_value (m : (ℓ : Loc nD τ sig) → Buf (Elt Ideal) ℓ) (c : Dev nD) (b : Fin 16) (q : Fin 2048) (d : Fin 128) :
    Cert.ReferenceIdeal.Value.res_out0 (F := Ideal) m c (Idealize.ShloMosaic.ValueIdx.ix3 b q d)
      = Cert.GatSpec.outR (m ((c.tc : Thread nD τ).loc main_arg0)) (m ((c.tc : Thread nD τ).loc main_arg1))
          (Cert.GatSpec.edgeMask scatter_S2048x2048_S65536x2_S65536_n_01_01_1 Facts₀.concatenates_S65536x1_S65536x1_S65536x2_d1
            Facts₀.bcast_S65536_S65536x1_0 Facts₀.bcast_S_S65536 (m ((c.tc : Thread nD τ).loc main_arg2)) (m ((c.tc : Thread nD τ).loc main_arg3)))
          b q d := by
  show Cert.ReferenceIdeal.Value.res_main_v40 (F := Ideal) m c (ix3 b q d) = _
  rw [val_main_v40_eq (F := Ideal) m c, v40_at, v22_eq]

end Cert.GatRef

end
-- ==== Proof.SoftmaxLaw.lean ====
/-
  The two facts about the attention layer's specification that involve no program text.

  * The adjacency array written by the scatter holds only zeros and ones: it starts as all zeros and every step of
    the fold either leaves it alone or overwrites one element by a one, so "every element is 0 or 1" is an
    invariant of the fold over any list of updates.

  * For finite node features and weights and a zero-one mask, normalising after aggregating equals normalising
    before.  The projections and scores are finite sums of products of reals, hence reals; the rectifier of a real
    is a real that vanishes only at zero (its slope is positive); so both spellings of the mask test,
    (mask ≠ 0) ∧ (s ≠ 0) and leaky(s) · mask = 0, select the same real logit at every position.  A row of real
    logits has a real maximum, every weight exp (logit − max) is a positive real, the row sum S is a positive
    real, and over the reals (Σ w·z) / S = Σ (w / S)·z.
-/
import proofs.«142861_j43499428774616_2_alg».proof.Proof.Spec
import Mathlib

noncomputable section

namespace Cert.GatSpec

open Idealize.ShloMosaic Idealize.ShloMosaic.ValueIdx

/-! ## The adjacency mask is zero-one -/

/-- A left fold whose step preserves "every element is 0 or 1" preserves it over any list. -/
theorem foldl_zero_or_one {ι κ : Type} (step : (ι → EReal) → κ → (ι → EReal))
    (hstep : ∀ r n, (∀ i, r i = 0 ∨ r i = 1) → ∀ i, step r n i = 0 ∨ step r n i = 1)
    (l : List κ) (x : ι → EReal) (hx : ∀ i, x i = 0 ∨ x i = 1) :
    ∀ i, l.foldl step x i = 0 ∨ l.foldl step x i = 1 := by
  induction l generalizing x with
  | nil => exact hx
  | cons n l ih =>
    rw [List.foldl_cons]
    exact ih _ (hstep x n hx)

theorem edgeMask_zero_or_one (D : ScatterDims Sm Se2 Se) (hcat : Shape.Concatenates [Se1, Se1] Se2 1)
    (hb : Se.BroadcastsInDim Se1 (![0] : Fin 1 → Fin Se1.rank)) (hs : S0.BroadcastsInDim Se (![] : Fin 0 → Fin Se.rank))
    (row col : IVec Se 32) (i : Sm.Idx) :
    edgeMask D hcat hb hs row col i = 0 ∨ edgeMask D hcat hb hs row col i = 1 := by
  unfold edgeMask Host.scatter
  generalize List.finRange Se.numel = l
  refine foldl_zero_or_one _ ?_ l _ (fun _ => Or.inl rfl) i
  intro r n hr j
  dsimp only
  generalize D.resultIdx? _ _ = o
  cases o with
  | none => exact hr j
  | some k =>
    dsimp only
    by_cases hjk : j = k
    · rw [if_pos hjk]; exact Or.inr rfl
    · rw [if_neg hjk]; exact hr j

/-! ## Finite sums and products of reals -/

theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum_real]; exact Finset.sum_congr rfl fun i _ => hg i⟩

theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem slope_real : ∃ r : ℝ, 0 < r ∧ slope = (r : EReal) := by
  unfold slope
  simp [Ideal.ofBits, Ideal.ieee, -EReal.coe_mul]

theorem fill_real : ∃ r : ℝ, fill = (r : EReal) :=
  ⟨-(9313226 * 2 ^ 30), by unfold fill; simp [Ideal.ofBits, Ideal.ieee, -EReal.coe_mul]⟩

/-! ## One-bit conditions -/

theorem select_ofBool {α : Type} (c : Bool) (a b : α) :
    Scalar.select (BitVec.ofBool c) a b = if c then a else b := by
  cases c
  · exact select_zero a b
  · exact select_one a b

theorem andi_ofBool (p q : Bool) : IntOp.andi (BitVec.ofBool p) (BitVec.ofBool q) = BitVec.ofBool (p && q) := by
  cases p <;> cases q <;> rfl

/-- The rectifier at a real score, for a real slope. -/
theorem leaky_coe {sl : ℝ} (hsl : slope = (sl : EReal)) (r : ℝ) :
    leaky (r : EReal) = ((if 0 < r then r else sl * r : ℝ) : EReal) := by
  unfold leaky Ideal.cmp
  rw [select_ofBool, hsl]
  by_cases h : 0 < r
  · have h' : (0 : EReal) < (r : EReal) := EReal.coe_pos.2 h
    simp [h, h']
  · have h' : ¬ (0 : EReal) < (r : EReal) := fun h'' => h (EReal.coe_pos.1 h'')
    simp [h, h']

/-- With a positive slope the rectifier vanishes only at zero. -/
theorem leaky_real_eq_zero {sl : ℝ} (hpos : 0 < sl) (r : ℝ) :
    (if 0 < r then r else sl * r) = 0 ↔ r = 0 := by
  by_cases h : 0 < r
  · simp [h]
  · simp [h, hpos.ne']

/-- The two spellings of the mask test choose the same logit, for a real score and a mask value of zero or one. -/
theorem logit_aux (s : ℝ) (m : EReal) (hm : m = 0 ∨ m = 1) :
    Scalar.select (IntOp.andi (Ideal.cmp .one m 0) (Ideal.cmp .one (s : EReal) 0)) (leaky (s : EReal)) fill
      = Scalar.select (Ideal.cmp .oeq (leaky (s : EReal) * m) 0) fill (leaky (s : EReal) * m) := by
  obtain ⟨sl, hpos, hsl⟩ := slope_real
  rw [leaky_coe hsl]
  have hz := leaky_real_eq_zero hpos s
  generalize (if 0 < s then s else sl * s) = L at hz ⊢
  unfold Ideal.cmp
  rw [andi_ofBool, select_ofBool, select_ofBool]
  rcases hm with rfl | rfl
  · simp
  · by_cases hs : s = 0
    · have hL : L = 0 := hz.2 hs
      subst hs hL
      simp
    · have hL : L ≠ 0 := fun h => hs (hz.1 h)
      simp [hs, hL]

theorem select_real {c : BitVec 1} {a b : EReal} (ha : ∃ r : ℝ, a = (r : EReal)) (hb : ∃ r : ℝ, b = (r : EReal)) :
    ∃ r : ℝ, Scalar.select c a b = (r : EReal) := by
  unfold Scalar.select
  split_ifs
  · exact ha
  · exact hb

/-! ## Everything is real for finite inputs -/

section
variable (h : Sh.Idx → EReal) (W : Sw.Idx → EReal) (mk : Sm.Idx → EReal)

theorem proj_real (hh : ∀ i, ∃ r : ℝ, h i = (r : EReal)) (hW : ∀ i, ∃ r : ℝ, W i = (r : EReal))
    (b : Fin 16) (n : Fin 2048) (d : Fin 128) : ∃ r : ℝ, proj h W b n d = (r : EReal) :=
  sum_real _ _ fun _ => mul_real (hh _) (hW _)

theorem score_real (hh : ∀ i, ∃ r : ℝ, h i = (r : EReal)) (hW : ∀ i, ∃ r : ℝ, W i = (r : EReal))
    (b : Fin 16) (q n : Fin 2048) : ∃ r : ℝ, score h W b q n = (r : EReal) :=
  sum_real _ _ fun _ => mul_real (proj_real h W hh hW _ _ _) (proj_real h W hh hW _ _ _)

theorem logitK_real (hh : ∀ i, ∃ r : ℝ, h i = (r : EReal)) (hW : ∀ i, ∃ r : ℝ, W i = (r : EReal))
    (b : Fin 16) (q n : Fin 2048) : ∃ r : ℝ, logitK h W mk b q n = (r : EReal) := by
  obtain ⟨s, hs⟩ := score_real h W hh hW b q n
  obtain ⟨sl, -, hsl⟩ := slope_real
  unfold logitK
  rw [hs, leaky_coe hsl]
  exact select_real ⟨_, rfl⟩ fill_real

theorem logitK_eq_logitR (hh : ∀ i, ∃ r : ℝ, h i = (r : EReal)) (hW : ∀ i, ∃ r : ℝ, W i = (r : EReal))
    (hmk : ∀ i, mk i = 0 ∨ mk i = 1) (b : Fin 16) (q n : Fin 2048) :
    logitK h W mk b q n = logitR h W mk b q n := by
  obtain ⟨s, hs⟩ := score_real h W hh hW b q n
  unfold logitK logitR
  rw [hs]
  exact logit_aux s _ (hmk _)

end

/-- The maximum of a row of reals is a real. -/
theorem rowMax_real (x : Fin 2048 → EReal) (hx : ∀ n, ∃ r : ℝ, x n = (r : EReal)) :
    ∃ r : ℝ, rowMax x = (r : EReal) := by
  have hbot : rowMax x ≠ ⊥ := by
    obtain ⟨r, hr⟩ := hx 0
    have hle : x 0 ≤ rowMax x := (Finset.le_fold_max _).2 (Or.inr ⟨0, Finset.mem_univ _, le_rfl⟩)
    intro hb
    rw [hb, hr] at hle
    exact (EReal.bot_lt_coe r).not_ge hle
  have htop : rowMax x ≠ ⊤ := by
    have hlt : rowMax x < ⊤ := (Finset.fold_max_lt _).2 ⟨bot_lt_top, fun n _ => by
      obtain ⟨r, hr⟩ := hx n
      rw [hr]; exact EReal.coe_lt_top r⟩
    exact hlt.ne
  exact ⟨(rowMax x).toReal, (EReal.coe_toReal htop hbot).symm⟩

/-- Dividing a weighted sum by the positive total weight is weighting by the normalised weights. -/
theorem softmax_div_comm {ι : Type} [Fintype ι] [Nonempty ι] (w z : ι → ℝ) (hw : ∀ i, 0 < w i) :
    Ideal.div (∑ n, (w n : EReal) * (z n : EReal)) (∑ n, (w n : EReal))
      = ∑ n, Ideal.div (w n : EReal) (∑ n', (w n' : EReal)) * (z n : EReal) := by
  have hS : (0 : ℝ) < ∑ n, w n := Finset.sum_pos (fun i _ => hw i) Finset.univ_nonempty
  have e1 : ∑ n, (w n : EReal) * (z n : EReal) = ((∑ n, w n * z n : ℝ) : EReal) := by
    rw [coe_sum_real]; exact Finset.sum_congr rfl fun n _ => (EReal.coe_mul _ _).symm
  have e2 : ∑ n, Ideal.div (w n : EReal) ((∑ n', w n' : ℝ) : EReal) * (z n : EReal)
      = ((∑ n, w n * (1 / ∑ n', w n') * z n : ℝ) : EReal) := by
    refine Eq.trans (Finset.sum_congr rfl fun n _ => ?_)
      (coe_sum_real Finset.univ fun n => w n * (1 / ∑ n', w n') * z n).symm
    rw [Ideal.div_coe hS.ne', ← EReal.coe_mul, ← EReal.coe_mul]
  rw [← coe_sum_real Finset.univ w, e1, e2, Ideal.div_coe hS.ne', ← EReal.coe_mul, Finset.sum_mul]
  congr 1
  exact Finset.sum_congr rfl fun n _ => by ring

theorem outK_eq_outR (h : Sh.Idx → EReal) (W : Sw.Idx → EReal) (mk : Sm.Idx → EReal)
    (hh : ∀ i, ∃ r : ℝ, h i = (r : EReal)) (hW : ∀ i, ∃ r : ℝ, W i = (r : EReal))
    (hmk : ∀ i, mk i = 0 ∨ mk i = 1) (b : Fin 16) (q : Fin 2048) (d : Fin 128) :
    outK h W mk b q d = outR h W mk b q d := by
  have hl : ∀ n, ∃ r : ℝ, logitK h W mk b q n = (r : EReal) := fun n => logitK_real h W mk hh hW b q n
  have hz : ∀ n, ∃ r : ℝ, proj h W b n d = (r : EReal) := fun n => proj_real h W hh hW b n d
  have hKR : logitR h W mk b q = logitK h W mk b q :=
    funext fun n => (logitK_eq_logitR h W mk hh hW hmk b q n).symm
  obtain ⟨m, hm⟩ := rowMax_real (logitK h W mk b q) hl
  choose l hl using hl
  choose z hz using hz
  have hwK : ∀ n, wK h W mk b q n = ((Real.exp (l n - m) : ℝ) : EReal) := fun n => by
    unfold wK; rw [hl, hm, ← EReal.coe_sub, Ideal.exp_coe]
  have hwR : ∀ n, wR h W mk b q n = ((Real.exp (l n - m) : ℝ) : EReal) := fun n => by
    unfold wR; rw [hKR, hl, hm, ← EReal.coe_sub, Ideal.exp_coe]
  unfold outK outR
  simp only [hwK, hwR, hz]
  exact softmax_div_comm (fun n => Real.exp (l n - m)) z (fun n => Real.exp_pos _)

end Cert.GatSpec

end
-- ==== Proof.Finite.lean ====
/-
  The precondition read back: it is the conjunction of two `all`s, each saying that every entry's absolute value is
  below +∞. On the extended reals |x| < ⊤ excludes both infinities, so every entry of the features and of the weight is
  a real number.
-/
import proofs.«142861_j43499428774616_2_alg».proof.Proof.Gen.Pre_finite_inputs
import Idealize.ShloMosaic.PureOps.Ideal
import Idealize.ShloMosaic.Lib.ReduceAll
import Idealize.ShloMosaic.Lib.ValueIdx
import Idealize.ShloMosaic.Lib.Affine

noncomputable section

namespace Cert.GatFin

open Idealize.ShloMosaic Cert.Pre_finite_inputs

/-- An extended real whose absolute value compares below the +∞ pattern is a real. -/
theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => exact absurd hx (by simp [Ideal.cmp])
  | top => exact absurd hx (by simp [Ideal.cmp])
  | coe r => exact ⟨r, rfl⟩

instance : Subsingleton S_.Idx := ⟨fun a b => funext fun d => d.elim0⟩

/-- Under the precondition every entry of the two float arguments is a real. -/
theorem finite_of_pre (h : FVec Ideal S16x2048x128 .f32) (W : FVec Ideal S128x128 .f32) (row col : IVec S65536 32)
    (hp : Cert.Pre_finite_inputs.fn (F := Ideal) h W row col = fun _ => 1#1) :
    (∀ i, ∃ r : ℝ, h i = (r : EReal)) ∧ (∀ i, ∃ r : ℝ, W i = (r : EReal)) := by
  have e := congrFun hp ValueIdx.ix0
  dsimp only [fn] at e
  obtain ⟨e1, e2⟩ := IntOp.andi_eq_one.1 e
  exact ⟨fun i => real_of_abs_lt (h i) (Host.reduce_andi_all _ _ _ _ _ e1 i),
    fun i => real_of_abs_lt (W i) (Host.reduce_andi_all _ _ _ _ _ e2 i)⟩

end Cert.GatFin

end
-- ==== Proof.MaskDims.lean ====
/-
  The two programs' adjacency masks are one function of the endpoint lists: their scatter's dimension numbers are the
  same record (no window axes, both operand axes inserted and indexed, the index vector along axis 1), and everything
  else the mask takes is a shape fact.
-/
import proofs.«142861_j43499428774616_2_alg».proof.Proof.Gen.KernelIdeal
import proofs.«142861_j43499428774616_2_alg».proof.Proof.Gen.ReferenceIdeal
import proofs.«142861_j43499428774616_2_alg».proof.Proof.Spec

noncomputable section

namespace Cert.GatMask

open Idealize.ShloMosaic

/-- The dimension numbers of the two scatters are the same record. -/
theorem dims_eq : Cert.ReferenceIdeal.scatter_S2048x2048_S65536x2_S65536_n_01_01_1
    = Cert.KernelIdeal.scatter_S2048x2048_S65536x2_S65536_n_01_01_1 := rfl

/-- Hence the two masks of the same endpoint lists are equal. -/
theorem mask_eq (row col : IVec Cert.GatSpec.Se 32) :
    Cert.GatSpec.edgeMask Cert.ReferenceIdeal.scatter_S2048x2048_S65536x2_S65536_n_01_01_1
        Cert.ReferenceIdeal.Gen.concatenates_S65536x1_S65536x1_S65536x2_d1 Cert.ReferenceIdeal.Gen.bcast_S65536_S65536x1_0
        Cert.ReferenceIdeal.Gen.bcast_S_S65536 row col
      = Cert.GatSpec.edgeMask Cert.KernelIdeal.scatter_S2048x2048_S65536x2_S65536_n_01_01_1
          Cert.KernelIdeal.Gen.concatenates_S65536x1_S65536x1_S65536x2_d1 Cert.KernelIdeal.Gen.bcast_S65536_S65536x1_0
          Cert.KernelIdeal.Gen.bcast_S_S65536 row col := by
  rw [dims_eq]

end Cert.GatMask

end
-- ==== Proof.Bridge.lean ====
/-
  The bridge between the two programs' results, entry by entry, for finite features and weight and memories that agree
  on the arguments: the array program's entry is `outR` of the arguments (its operations read at an index), the two
  programs build the same mask, `outR` and `outK` agree for a zero–one mask and finite inputs, and `outK` of the arguments
  is the two-call program's entry.
-/
import proofs.«142861_j43499428774616_2_alg».proof.Defs
import proofs.«142861_j43499428774616_2_alg».proof.Proof.KernelValue
import proofs.«142861_j43499428774616_2_alg».proof.Proof.RefValue
import proofs.«142861_j43499428774616_2_alg».proof.Proof.SoftmaxLaw
import proofs.«142861_j43499428774616_2_alg».proof.Proof.Finite
import proofs.«142861_j43499428774616_2_alg».proof.Proof.MaskDims

set_option maxRecDepth 16384

noncomputable section

namespace Cert.GatBridge

open Idealize.ShloMosaic Idealize.ShloMosaic.TcCoe Idealize.ShloMosaic.ValueIdx Idealize.SL.Sem

/-- Entry by entry the array program's result is the two-call program's. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) (b : Fin 16) (q : Fin 2048) (d : Fin 128) :
    Cert.ReferenceIdeal.Value.res_out0 (F := Ideal) m' c (ix3 b q d)
      = ((Cert.KernelIdeal.Hand.dat1 (Cert.KernelIdeal.Hand.Va3 m ρ) c).arrAt 3 Cert.KernelIdeal.cfg1.N : Cert.KernelIdeal.S16x2048x128.Idx → EReal) (ix3 b q d) := by
  obtain ⟨hh, hW⟩ := Cert.GatFin.finite_of_pre _ _ _ _ (hpre c)
  have e := Cert.GatRef.ref_value m' c b q d
  rw [(hagree c).1, (hagree c).2.1, (hagree c).2.2.1, (hagree c).2.2.2, Cert.GatMask.mask_eq] at e
  have hk := Cert.KernelIdeal.HandV.kernel_value m ρ c b q d
  have hlaw := Cert.GatSpec.outK_eq_outR (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (Cert.GatSpec.edgeMask Cert.KernelIdeal.scatter_S2048x2048_S65536x2_S65536_n_01_01_1
      Cert.KernelIdeal.Gen.concatenates_S65536x1_S65536x1_S65536x2_d1 Cert.KernelIdeal.Gen.bcast_S65536_S65536x1_0
      Cert.KernelIdeal.Gen.bcast_S_S65536 (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
    hh hW (fun i => Cert.GatSpec.edgeMask_zero_or_one _ _ _ _ _ _ i) b q d
  exact e.trans (hlaw.symm.trans hk.symm)

end Cert.GatBridge

end
-- ==== Proof.lean ====
/-
  The graph-attention layer — a projection z = h·W, inner-product scores z·zᵀ, a leaky rectifier, a zero–one adjacency
  mask built from sparse edge lists, a large negative fill where the edge is absent or the score vanishes, a softmax over
  the keys and the aggregation softmax·z — computed by two pipelined calls against its plain array formulation.

  Both programs run to the end without a fault and leave their arguments alone: the two-call program through one run of
  its segments (host operations, the projection call, a reshape, the attention call), the array program through its list
  of host operations. No operation of the two-call program was rewritten for the ideal reading, so there is nothing to
  preserve. Over the extended reals the two results are equal entry by entry: the two-call program aggregates the
  unnormalised weights first and divides the [512,128] result by the row sums, the array program divides every weight
  first; a row's weights are exponentials of differences from the row's maximum, so each is a real in (0,1] and the row
  sum is a positive real, and with finite features and weight division distributes over the finite sum. The two spellings
  of the masking test — (mask ≠ 0) ∧ (score ≠ 0), against rectified score · mask = 0 — agree because the mask holds
  only zeros and ones and the rectifier vanishes exactly where the score does.
-/
import proofs.«142861_j43499428774616_2_alg».proof.Defs
import proofs.«142861_j43499428774616_2_alg».proof.Proof.Gen.Kernel
import proofs.«142861_j43499428774616_2_alg».proof.Proof.Gen.KernelIdeal
import proofs.«142861_j43499428774616_2_alg».proof.Proof.Gen.ReferenceIdeal
import proofs.«142861_j43499428774616_2_alg».proof.Proof.Gen.ReferenceIdeal.Run
import proofs.«142861_j43499428774616_2_alg».proof.Proof.Gen.ReferenceIdeal.Read
import proofs.«142861_j43499428774616_2_alg».proof.Proof.Gen.Pre_finite_inputs
import proofs.«142861_j43499428774616_2_alg».proof.Proof.FrameRunB
import proofs.«142861_j43499428774616_2_alg».proof.Proof.FrameRunI
import proofs.«142861_j43499428774616_2_alg».proof.Proof.Bridge

set_option maxRecDepth 16384

noncomputable section

namespace Cert.Proof

open Idealize.ShloMosaic Idealize.ShloMosaic.TcCoe Idealize.ShloMosaic.ValueIdx Idealize.SL.Sem

/-- The two-call program, read at the word level, runs and keeps its arguments. -/
theorem frame_p : Cert.frame_Kernel := fun m ρ _ => Cert.Kernel.Hand.frame m ρ
/-- The same program read over the extended reals. -/
theorem frame_pi : Cert.frame_KernelIdeal := fun m ρ _ => Cert.KernelIdeal.Hand.frame m ρ
/-- The array program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- Over the extended reals both programs run, with equal results and unchanged arguments. -/
theorem algebraic : Cert.algebraic_KernelIdeal_ReferenceIdeal := by
  intro m ρ m' ρ' hpre hagree
  refine ⟨fun c => (Cert.KernelIdeal.Hand.dat1 (Cert.KernelIdeal.Hand.Va3 m ρ) c).arrAt 3 Cert.KernelIdeal.cfg1.N,
    Cert.KernelIdeal.Hand.result m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, q, d, rfl⟩ : ∃ (b : Fin 16) (q : Fin 2048) (d : Fin 128), i = ix3 b q d := ⟨i 0, i 1, i 2, eq_ix3 i⟩
  exact Cert.GatBridge.result_eq m ρ m' hpre hagree c b q d

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
